-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S2x32768 : Shape := ⟨2, ![2, 32768]⟩
abbrev S32768 : Shape := ⟨1, ![32768]⟩
abbrev S16x8 : Shape := ⟨2, ![16, 8]⟩
abbrev S10x32 : Shape := ⟨2, ![10, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S32768 : S_.BroadcastsInDim S32768 (![] : Fin 0 → Fin S32768.rank)
  reducesTo_S32768_S_d0 : S32768.ReducesTo [0] S_
  bcast_S_S16x8 : S_.BroadcastsInDim S16x8 (![] : Fin 0 → Fin S16x8.rank)
  reducesTo_S16x8_S_d0_1 : S16x8.ReducesTo [0, 1] S_
  bcast_S_S10x32 : S_.BroadcastsInDim S10x32 (![] : Fin 0 → Fin S10x32.rank)
  reducesTo_S10x32_S_d0_1 : S10x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  reducesTo_S_S_d : S_.ReducesTo [] S_

variable [Facts]

def fn_part2 {F : FTy → Type} [FloatOps F] (main_arg9 : FVec F S_ .f32) (main_v33 : IVec S_ 1) : IVec S_ 1 :=
  let main_v34 : FVec F S_ .f32 := Host.absf main_arg9
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  main_v37

def fn_part1 {F : FTy → Type} [FloatOps F] (main_arg6 : FVec F S32 .f32) (main_arg7 : FVec F S32x1 .f32) (main_arg8 : FVec F S1 .f32) (main_arg9 : FVec F S_ .f32) (main_v13 : IVec S_ 1) (main_v16 : IVec S10x32 1) : IVec S_ 1 :=
  let main_c_5 : IVec S_ 1 := constantI S_ 1 1#1
  let main_v17 : IVec S_ 1 := (fun x v => Host.reduce IntOp.andi x v reducesTo_S10x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg7
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_v33

def fn {F : FTy → Type} [FloatOps F] (main_arg0 : FVec F S8x2048x3 .f32) (main_arg1 : IVec S2x32768 32) (main_arg2 : IVec S32768 32) (main_arg3 : FVec F S32768 .f32) (main_arg4 : FVec F S16x8 .f32) (main_arg5 : FVec F S10x32 .f32) (main_arg6 : FVec F S32 .f32) (main_arg7 : FVec F S32x1 .f32) (main_arg8 : FVec F S1 .f32) (main_arg9 : FVec F S_ .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S32768 .f32 := Host.absf main_arg3
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  let main_c_1 : IVec S_ 1 := constantI S_ 1 1#1
  let main_v7 : IVec S_ 1 := (fun x v => Host.reduce IntOp.andi x v reducesTo_S32768_S_d0 h_S_) main_v6 main_c_1
  let main_v8 : IVec S_ 1 := andi main_v3 main_v7
  let main_v9 : FVec F S16x8 .f32 := Host.absf main_arg4
  let main_cst_2 : FVec F S_ .f32 := constant S_ .f32 0x7F800000#32
  let main_v10 : FVec F S16x8 .f32 := broadcastInDim S16x8 ![] bcast_S_S16x8 main_cst_2
  let main_v11 : IVec S16x8 1 := cmpf .olt main_v9 main_v10
  let main_c_3 : IVec S_ 1 := constantI S_ 1 1#1
  let main_v12 : IVec S_ 1 := (fun x v => Host.reduce IntOp.andi x v reducesTo_S16x8_S_d0_1 h_S_) main_v11 main_c_3
  let main_v13 : IVec S_ 1 := andi main_v8 main_v12
  let main_v14 : FVec F S10x32 .f32 := Host.absf main_arg5
  let main_cst_4 : FVec F S_ .f32 := constant S_ .f32 0x7F800000#32
  let main_v15 : FVec F S10x32 .f32 := broadcastInDim S10x32 ![] bcast_S_S10x32 main_cst_4
  let main_v16 : IVec S10x32 1 := cmpf .olt main_v14 main_v15
  fn_part1 (F := F) main_arg6 main_arg7 main_arg8 main_arg9 main_v13 main_v16
-- ==== Kernel.lean ====
abbrev S8x2048x3 : Shape := ⟨3, ![8, 2048, 3]⟩
abbrev S2x32768 : Shape := ⟨2, ![2, 32768]⟩
abbrev S32768 : Shape := ⟨1, ![32768]⟩
abbrev S16x8 : Shape := ⟨2, ![16, 8]⟩
abbrev S10x32 : Shape := ⟨2, ![10, 32]⟩
abbrev S32 : Shape := ⟨1, ![32]⟩
abbrev S32x1 : Shape := ⟨2, ![32, 1]⟩
abbrev S1 : Shape := ⟨1, ![1]⟩
abbrev S_ : Shape := ⟨0, ![]⟩
abbrev S1x32768 : Shape := ⟨2, ![1, 32768]⟩
abbrev S32768x1 : Shape := ⟨2, ![32768, 1]⟩
abbrev S8x32768x3 : Shape := ⟨3, ![8, 32768, 3]⟩
abbrev S8x3x32768 : Shape := ⟨3, ![8, 3, 32768]⟩
abbrev S32768x8 : Shape := ⟨2, ![32768, 8]⟩
abbrev S8x32768 : Shape := ⟨2, ![8, 32768]⟩
abbrev S32x10 : Shape := ⟨2, ![32, 10]⟩
abbrev S1x32 : Shape := ⟨2, ![1, 32]⟩
abbrev S1x1 : Shape := ⟨2, ![1, 1]⟩
abbrev S8x3x4096 : Shape := ⟨3, ![8, 3, 4096]⟩
abbrev S1x4096 : Shape := ⟨2, ![1, 4096]⟩
abbrev S8x4096 : Shape := ⟨2, ![8, 4096]⟩
abbrev S1x3x4096 : Shape := ⟨3, ![1, 3, 4096]⟩
abbrev S3x4096 : Shape := ⟨2, ![3, 4096]⟩
abbrev S4096 : Shape := ⟨1, ![4096]⟩
abbrev S10x4096 : Shape := ⟨2, ![10, 4096]⟩
abbrev S32x4096 : Shape := ⟨2, ![32, 4096]⟩
abbrev S8x2048x2048 : Shape := ⟨3, ![8, 2048, 2048]⟩
abbrev S32768x2 : Shape := ⟨2, ![32768, 2]⟩
abbrev S8x1x2048x2048 : Shape := ⟨4, ![8, 1, 2048, 2048]⟩

abbrev nBuf : Space → Nat
  | .hbm => 88
  | .vmem => 12
  | .smem => 0
  | _ => 0

abbrev bufTy : (tb : Table) → Fin (tcTables nBuf tb) → BufTy
  | .hbm, ⟨0, _⟩ => ⟨S8x2048x3, .f32⟩
  | .hbm, ⟨1, _⟩ => ⟨S2x32768, .i32⟩
  | .hbm, ⟨2, _⟩ => ⟨S32768, .i32⟩
  | .hbm, ⟨3, _⟩ => ⟨S32768, .f32⟩
  | .hbm, ⟨4, _⟩ => ⟨S16x8, .f32⟩
  | .hbm, ⟨5, _⟩ => ⟨S10x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S_, .f32⟩
  | .hbm, ⟨10, _⟩ => ⟨S1x32768, .i32⟩
  | .hbm, ⟨11, _⟩ => ⟨S32768, .i32⟩
  | .hbm, ⟨12, _⟩ => ⟨S1x32768, .i32⟩
  | .hbm, ⟨13, _⟩ => ⟨S32768, .i32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768x1, .i32⟩
  | .hbm, ⟨22, _⟩ => ⟨S8x32768x3, .f32⟩
  | .hbm, ⟨23, _⟩ => ⟨S_, .i32⟩
  | .hbm, ⟨24, _⟩ => ⟨S32768, .i32⟩
  | .hbm, ⟨25, _⟩ => ⟨S32768, .i1⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S32768, .i32⟩
  | .hbm, ⟨30, _⟩ => ⟨S32768x1, .i32⟩
  | .hbm, ⟨31, _⟩ => ⟨S8x32768x3, .f32⟩
  | .hbm, ⟨32, _⟩ => ⟨S8x32768x3, .f32⟩
  | .hbm, ⟨33, _⟩ => ⟨S8x3x32768, .f32⟩
  | .hbm, ⟨34, _⟩ => ⟨S_, .i32⟩
  | .hbm, ⟨35, _⟩ => ⟨S32768, .i32⟩
  | .hbm, ⟨36, _⟩ => ⟨S32768, .i1⟩
  | .hbm, ⟨37, _⟩ => ⟨S_, .i32⟩
  | .hbm, ⟨38, _⟩ => ⟨S32768, .i32⟩
  | .hbm, ⟨39, _⟩ => ⟨S32768, .i32⟩
  | .hbm, ⟨40, _⟩ => ⟨S32768, .i32⟩
  | .hbm, ⟨41, _⟩ => ⟨S32768x1, .i32⟩
  | .hbm, ⟨42, _⟩ => ⟨S32768x8, .f32⟩
  | .hbm, ⟨43, _⟩ => ⟨S8x32768, .f32⟩
  | .hbm, ⟨44, _⟩ => ⟨S1x32768, .f32⟩
  | .hbm, ⟨45, _⟩ => ⟨S32x10, .f32⟩
  | .hbm, ⟨46, _⟩ => ⟨S32x1, .f32⟩
  | .hbm, ⟨47, _⟩ => ⟨S1x32, .f32⟩
  | .hbm, ⟨48, _⟩ => ⟨S1x1, .f32⟩
  | .hbm, ⟨49, _⟩ => ⟨S8x32768, .f32⟩
  | .hbm, ⟨50, _⟩ => ⟨S8x2048x2048, .f32⟩
  | .hbm, ⟨51, _⟩ => ⟨S_, .i32⟩
  | .hbm, ⟨52, _⟩ => ⟨S32768, .i32⟩
  | .hbm, ⟨53, _⟩ => ⟨S32768, .i1⟩
  | .hbm, ⟨54, _⟩ => ⟨S_, .i32⟩
  | .hbm, ⟨55, _⟩ => ⟨S32768, .i32⟩
  | .hbm, ⟨56, _⟩ => ⟨S32768, .i32⟩
  | .hbm, ⟨57, _⟩ => ⟨S32768, .i32⟩
  | .hbm, ⟨58, _⟩ => ⟨S_, .i32⟩
  | .hbm, ⟨59, _⟩ => ⟨S32768, .i32⟩
  | .hbm, ⟨60, _⟩ => ⟨S32768, .i1⟩
  | .hbm, ⟨61, _⟩ => ⟨S_, .i32⟩
  | .hbm, ⟨62, _⟩ => ⟨S32768, .i32⟩
  | .hbm, ⟨63, _⟩ => ⟨S32768, .i32⟩
  | .hbm, ⟨64, _⟩ => ⟨S32768, .i32⟩
  | .hbm, ⟨65, _⟩ => ⟨S32768x1, .i32⟩
  | .hbm, ⟨66, _⟩ => ⟨S32768x1, .i32⟩
  | .hbm, ⟨67, _⟩ => ⟨S32768x2, .i32⟩
  | .hbm, ⟨68, _⟩ => ⟨S8x2048x2048, .f32⟩
  | .hbm, ⟨69, _⟩ => ⟨S_, .i32⟩
  | .hbm, ⟨70, _⟩ => ⟨S32768, .i32⟩
  | .hbm, ⟨71, _⟩ => ⟨S32768, .i1⟩
  | .hbm, ⟨72, _⟩ => ⟨S_, .i32⟩
  | .hbm, ⟨73, _⟩ => ⟨S32768, .i32⟩
  | .hbm, ⟨74, _⟩ => ⟨S32768, .i32⟩
  | .hbm, ⟨75, _⟩ => ⟨S32768, .i32⟩
  | .hbm, ⟨76, _⟩ => ⟨S_, .i32⟩
  | .hbm, ⟨77, _⟩ => ⟨S32768, .i32⟩
  | .hbm, ⟨78, _⟩ => ⟨S32768, .i1⟩
  | .hbm, ⟨79, _⟩ => ⟨S_, .i32⟩
  | .hbm, ⟨80, _⟩ => ⟨S32768, .i32⟩
  | .hbm, ⟨81, _⟩ => ⟨S32768, .i32⟩
  | .hbm, ⟨82, _⟩ => ⟨S32768, .i32⟩
  | .hbm, ⟨83, _⟩ => ⟨S32768x1, .i32⟩
  | .hbm, ⟨84, _⟩ => ⟨S32768x1, .i32⟩
  | .hbm, ⟨85, _⟩ => ⟨S32768x2, .i32⟩
  | .hbm, ⟨86, _⟩ => ⟨S8x2048x2048, .f32⟩
  | .hbm, ⟨87, _⟩ => ⟨S8x1x2048x2048, .f32⟩
  | .local _ .vmem, ⟨0, _⟩ => ⟨S8x3x4096, .f32⟩
  | .local _ .vmem, ⟨1, _⟩ => ⟨S8x3x4096, .f32⟩
  | .local _ .vmem, ⟨2, _⟩ => ⟨S1x4096, .f32⟩
  | .local _ .vmem, ⟨3, _⟩ => ⟨S1x4096, .f32⟩
  | .local _ .vmem, ⟨4, _⟩ => ⟨S8x4096, .f32⟩
  | .local _ .vmem, ⟨5, _⟩ => ⟨S8x4096, .f32⟩
  | .local _ .vmem, ⟨6, _⟩ => ⟨S32x10, .f32⟩
  | .local _ .vmem, ⟨7, _⟩ => ⟨S32x1, .f32⟩
  | .local _ .vmem, ⟨8, _⟩ => ⟨S1x32, .f32⟩
  | .local _ .vmem, ⟨9, _⟩ => ⟨S1x1, .f32⟩
  | .local _ .vmem, ⟨10, _⟩ => ⟨S8x4096, .f32⟩
  | .local _ .vmem, ⟨11, _⟩ => ⟨S8x4096, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_c_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_c_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x32768_S1x32768_0_0 : S2x32768.Slices ![0, 0] S1x32768
  shapeCasts_S1x32768_S32768 : S1x32768.ShapeCasts S32768
  slices_S2x32768_S1x32768_1_0 : S2x32768.Slices ![1, 0] S1x32768
  bcast_S_S32768 : S_.BroadcastsInDim S32768 (![] : Fin 0 → Fin S32768.rank)
  bcast_S32768_S32768x1_0 : S32768.BroadcastsInDim S32768x1 (![0] : Fin 1 → Fin S32768x1.rank)
  transposes_S8x32768x3_S8x3x32768_0_2_1 : S8x32768x3.Transposes [0, 2, 1] S8x3x32768
  transposes_S32768x8_S8x32768_1_0 : S32768x8.Transposes [1, 0] S8x32768
  shapeCasts_S32768_S1x32768 : S32768.ShapeCasts S1x32768
  transposes_S10x32_S32x10_1_0 : S10x32.Transposes [1, 0] S32x10
  shapeCasts_S32_S32x1 : S32.ShapeCasts S32x1
  transposes_S32x1_S1x32_1_0 : S32x1.Transposes [1, 0] S1x32
  shapeCasts_S1_S1x1 : S1.ShapeCasts S1x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S32x10_S32x10_0_0 : ∀ a, (![0, 0] : Fin 2 → Nat) a + S32x10.size a ≤ S32x10.size a
  h_S32x10 : 0 < S32x10.numel
  shapeCasts_S32x10_S32x10 : S32x10.ShapeCasts S32x10
  bitsLt_bf16_f32 : FTy.bits .bf16 < FTy.bits .f32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x3x4096_S1x3x4096_0_0_0 : ∀ a, (![0, 0, 0] : Fin 3 → Nat) a + S1x3x4096.size a ≤ S8x3x4096.size a
  h_S1x3x4096 : 0 < S1x3x4096.numel
  shapeCasts_S1x3x4096_S3x4096 : S1x3x4096.ShapeCasts S3x4096
  reduces_S3x4096_S4096 : S3x4096.Reduces [0] S4096
  shapeCasts_S4096_S1x4096 : S4096.ShapeCasts S1x4096
  concatenates_S1x4096_S1x4096_S8x4096_S10x4096_d0 : Shape.Concatenates [S1x4096, S1x4096, S8x4096] S10x4096 0
  broadcasts_S32x1_S32x4096 : S32x1.Broadcasts S32x4096
  broadcasts_S1x1_S1x4096 : S1x1.Broadcasts S1x4096
  inb_S8x3x4096_S1x3x4096_1_0_0 : ∀ a, (![1, 0, 0] : Fin 3 → Nat) a + S1x3x4096.size a ≤ S8x3x4096.size a
  inb_S8x3x4096_S1x3x4096_2_0_0 : ∀ a, (![2, 0, 0] : Fin 3 → Nat) a + S1x3x4096.size a ≤ S8x3x4096.size a
  inb_S8x3x4096_S1x3x4096_3_0_0 : ∀ a, (![3, 0, 0] : Fin 3 → Nat) a + S1x3x4096.size a ≤ S8x3x4096.size a
  inb_S8x3x4096_S1x3x4096_4_0_0 : ∀ a, (![4, 0, 0] : Fin 3 → Nat) a + S1x3x4096.size a ≤ S8x3x4096.size a
  inb_S8x3x4096_S1x3x4096_5_0_0 : ∀ a, (![5, 0, 0] : Fin 3 → Nat) a + S1x3x4096.size a ≤ S8x3x4096.size a
  inb_S8x3x4096_S1x3x4096_6_0_0 : ∀ a, (![6, 0, 0] : Fin 3 → Nat) a + S1x3x4096.size a ≤ S8x3x4096.size a
  inb_S8x3x4096_S1x3x4096_7_0_0 : ∀ a, (![7, 0, 0] : Fin 3 → Nat) a + S1x3x4096.size a ≤ S8x3x4096.size a
  concatenates_S1x4096_S1x4096_S1x4096_S1x4096_S1x4096_S1x4096_S1x4096_S1x4096_S8x4096_d0 : Shape.Concatenates [S1x4096, S1x4096, S1x4096, S1x4096, S1x4096, S1x4096, S1x4096, S1x4096] S8x4096 0
  bcast_S_S8x2048x2048 : S_.BroadcastsInDim S8x2048x2048 (![] : Fin 0 → Fin S8x2048x2048.rank)
  concatenates_S32768x1_S32768x1_S32768x2_d1 : Shape.Concatenates [S32768x1, S32768x1] S32768x2 1
  bcast_S8x2048x2048_S8x1x2048x2048_0_2_3 : S8x2048x2048.BroadcastsInDim S8x1x2048x2048 (![0, 2, 3] : Fin 3 → Fin S8x1x2048x2048.rank)
  gather_S8x2048x3_S32768x1_S8x32768x3_02_1_n_n_1_1_813_wf : GatherDims.WF S8x2048x3 S32768x1 S8x32768x3 [0, 2] [1] [] [1] [] 1 ![8, 1, 3]
  gather_S16x8_S32768x1_S32768x8_1_0_n_n_0_1_18_wf : GatherDims.WF S16x8 S32768x1 S32768x8 [1] [0] [] [0] [] 1 ![1, 8]
  dot_S32x10_S10x4096_S32x4096_1_0_0_1_n_n_wf : DotDims.WF S32x10 S10x4096 S32x4096 [1] [0] [0] [1] [] []
  dot_S1x32_S32x4096_S1x4096_1_0_0_1_n_n_wf : DotDims.WF S1x32 S32x4096 S1x4096 [1] [0] [0] [1] [] []
  scatter_S8x2048x2048_S32768x2_S8x32768_0_12_12_1_wf : ScatterDims.WF S8x2048x2048 S32768x2 S8x32768 [0] [1, 2] [1, 2] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x4096.size a ≤ S8x3x32768.size a
  hwx0_0 : ∀ i : grid0.Coords, EltTy.bits .f32 = 32 ∨ (Rect.block (s := S8x3x32768) S8x3x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x32768.size a
  hwx0_1 : ∀ i : grid0.Coords, EltTy.bits .f32 = 32 ∨ (Rect.block (s := S1x32768) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x32768.size a
  hwx0_2 : ∀ i : grid0.Coords, EltTy.bits .f32 = 32 ∨ (Rect.block (s := S8x32768) S8x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x10.size a ≤ S32x10.size a
  hwx0_3 : ∀ i : grid0.Coords, EltTy.bits .f32 = 32 ∨ (Rect.block (s := S32x10) S32x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x4096.size a ≤ S8x32768.size a
  hwx0_7 : ∀ i : grid0.Coords, EltTy.bits .f32 = 32 ∨ (Rect.block (s := S8x32768) S8x4096.size (cc0_transform_7 i) (hinb0_7 i)).WholeWords (EltTy.packing .f32)

variable [Facts₀]

def gather_S8x2048x3_S32768x1_S8x32768x3_02_1_n_n_1_1_813 : GatherDims S8x2048x3 S32768x1 S8x32768x3 where
  offsetDims := [0, 2]
  collapsedSliceDims := [1]
  operandBatchingDims := []
  startIndicesBatchingDims := []
  startIndexMap := [1]
  indexVectorDim := 1
  sliceSizes := ![8, 1, 3]
  wf := gather_S8x2048x3_S32768x1_S8x32768x3_02_1_n_n_1_1_813_wf
def gather_S16x8_S32768x1_S32768x8_1_0_n_n_0_1_18 : GatherDims S16x8 S32768x1 S32768x8 where
  offsetDims := [1]
  collapsedSliceDims := [0]
  operandBatchingDims := []
  startIndicesBatchingDims := []
  startIndexMap := [0]
  indexVectorDim := 1
  sliceSizes := ![1, 8]
  wf := gather_S16x8_S32768x1_S32768x8_1_0_n_n_0_1_18_wf
def dot_S32x10_S10x4096_S32x4096_1_0_0_1_n_n : DotDims S32x10 S10x4096 S32x4096 where
  lhsContracting := [1]
  rhsContracting := [0]
  lhsNonContracting := [0]
  rhsNonContracting := [1]
  lhsBatch := []
  rhsBatch := []
  wf := dot_S32x10_S10x4096_S32x4096_1_0_0_1_n_n_wf
def dot_S1x32_S32x4096_S1x4096_1_0_0_1_n_n : DotDims S1x32 S32x4096 S1x4096 where
  lhsContracting := [1]
  rhsContracting := [0]
  lhsNonContracting := [0]
  rhsNonContracting := [1]
  lhsBatch := []
  rhsBatch := []
  wf := dot_S1x32_S32x4096_S1x4096_1_0_0_1_n_n_wf
def scatter_S8x2048x2048_S32768x2_S8x32768_0_12_12_1 : ScatterDims S8x2048x2048 S32768x2 S8x32768 where
  updateWindowDims := [0]
  insertedWindowDims := [1, 2]
  scatterDimsToOperandDims := [1, 2]
  indexVectorDim := 1
  wf := scatter_S8x2048x2048_S32768x2_S8x32768_0_12_12_1_wf

abbrev win0_0 : Pipeline.Window sig grid0 :=
  Pipeline.Window.ofSpec (Memref.whole main_v19) S8x3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S8x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S32x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S8x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x3 : Shape := ⟨3, ![8, 2048, 3]⟩
abbrev S2x32768 : Shape := ⟨2, ![2, 32768]⟩
abbrev S32768 : Shape := ⟨1, ![32768]⟩
abbrev S16x8 : Shape := ⟨2, ![16, 8]⟩
abbrev S10x32 : Shape := ⟨2, ![10, 32]⟩
abbrev S32 : Shape := ⟨1, ![32]⟩
abbrev S32x1 : Shape := ⟨2, ![32, 1]⟩
abbrev S1 : Shape := ⟨1, ![1]⟩
abbrev S_ : Shape := ⟨0, ![]⟩
abbrev S1x32768 : Shape := ⟨2, ![1, 32768]⟩
abbrev S32768x1 : Shape := ⟨2, ![32768, 1]⟩
abbrev S8x32768x3 : Shape := ⟨3, ![8, 32768, 3]⟩
abbrev S8x32768 : Shape := ⟨2, ![8, 32768]⟩
abbrev S8x32768x1 : Shape := ⟨3, ![8, 32768, 1]⟩
abbrev S1x32768x1 : Shape := ⟨3, ![1, 32768, 1]⟩
abbrev S32768x8 : Shape := ⟨2, ![32768, 8]⟩
abbrev S1x32768x8 : Shape := ⟨3, ![1, 32768, 8]⟩
abbrev S8x32768x8 : Shape := ⟨3, ![8, 32768, 8]⟩
abbrev S8x32768x10 : Shape := ⟨3, ![8, 32768, 10]⟩
abbrev S8x32768x32 : Shape := ⟨3, ![8, 32768, 32]⟩
abbrev S1x1x32 : Shape := ⟨3, ![1, 1, 32]⟩
abbrev S1x1x1 : Shape := ⟨3, ![1, 1, 1]⟩
abbrev S8x2048x2048 : Shape := ⟨3, ![8, 2048, 2048]⟩
abbrev S32768x2 : Shape := ⟨2, ![32768, 2]⟩
abbrev S8x1x2048x2048 : Shape := ⟨4, ![8, 1, 2048, 2048]⟩

abbrev nBuf : Space → Nat
  | .hbm => 117
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S2x32768, .i32⟩
  | .hbm, ⟨2, _⟩ => ⟨S32768, .i32⟩
  | .hbm, ⟨3, _⟩ => ⟨S32768, .f32⟩
  | .hbm, ⟨4, _⟩ => ⟨S16x8, .f32⟩
  | .hbm, ⟨5, _⟩ => ⟨S10x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S_, .f32⟩
  | .hbm, ⟨10, _⟩ => ⟨S1x32768, .i32⟩
  | .hbm, ⟨11, _⟩ => ⟨S32768, .i32⟩
  | .hbm, ⟨12, _⟩ => ⟨S1x32768, .i32⟩
  | .hbm, ⟨13, _⟩ => ⟨S32768, .i32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768x1, .i32⟩
  | .hbm, ⟨22, _⟩ => ⟨S8x32768x3, .f32⟩
  | .hbm, ⟨23, _⟩ => ⟨S_, .i32⟩
  | .hbm, ⟨24, _⟩ => ⟨S32768, .i32⟩
  | .hbm, ⟨25, _⟩ => ⟨S32768, .i1⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S32768, .i32⟩
  | .hbm, ⟨30, _⟩ => ⟨S32768x1, .i32⟩
  | .hbm, ⟨31, _⟩ => ⟨S8x32768x3, .f32⟩
  | .hbm, ⟨32, _⟩ => ⟨S8x32768x3, .f32⟩
  | .hbm, ⟨33, _⟩ => ⟨S8x32768x3, .f32⟩
  | .hbm, ⟨34, _⟩ => ⟨S_, .f32⟩
  | .hbm, ⟨35, _⟩ => ⟨S8x32768, .f32⟩
  | .hbm, ⟨36, _⟩ => ⟨S8x32768x1, .f32⟩
  | .hbm, ⟨37, _⟩ => ⟨S_, .f32⟩
  | .hbm, ⟨38, _⟩ => ⟨S8x32768x1, .f32⟩
  | .hbm, ⟨39, _⟩ => ⟨S8x32768x1, .f32⟩
  | .hbm, ⟨40, _⟩ => ⟨S8x32768x1, .f32⟩
  | .hbm, ⟨41, _⟩ => ⟨S1x32768x1, .f32⟩
  | .hbm, ⟨42, _⟩ => ⟨S8x32768x1, .f32⟩
  | .hbm, ⟨43, _⟩ => ⟨S8x32768x1, .f32⟩
  | .hbm, ⟨44, _⟩ => ⟨S_, .f32⟩
  | .hbm, ⟨45, _⟩ => ⟨S1x32768x1, .f32⟩
  | .hbm, ⟨46, _⟩ => ⟨S1x32768x1, .f32⟩
  | .hbm, ⟨47, _⟩ => ⟨S8x32768x1, .f32⟩
  | .hbm, ⟨48, _⟩ => ⟨S8x32768x1, .f32⟩
  | .hbm, ⟨49, _⟩ => ⟨S_, .i32⟩
  | .hbm, ⟨50, _⟩ => ⟨S32768, .i32⟩
  | .hbm, ⟨51, _⟩ => ⟨S32768, .i1⟩
  | .hbm, ⟨52, _⟩ => ⟨S_, .i32⟩
  | .hbm, ⟨53, _⟩ => ⟨S32768, .i32⟩
  | .hbm, ⟨54, _⟩ => ⟨S32768, .i32⟩
  | .hbm, ⟨55, _⟩ => ⟨S32768, .i32⟩
  | .hbm, ⟨56, _⟩ => ⟨S32768x1, .i32⟩
  | .hbm, ⟨57, _⟩ => ⟨S32768x8, .f32⟩
  | .hbm, ⟨58, _⟩ => ⟨S1x32768x8, .f32⟩
  | .hbm, ⟨59, _⟩ => ⟨S8x32768x8, .f32⟩
  | .hbm, ⟨60, _⟩ => ⟨S8x32768x10, .f32⟩
  | .hbm, ⟨61, _⟩ => ⟨S8x32768x32, .f32⟩
  | .hbm, ⟨62, _⟩ => ⟨S1x1x32, .f32⟩
  | .hbm, ⟨63, _⟩ => ⟨S8x32768x32, .f32⟩
  | .hbm, ⟨64, _⟩ => ⟨S8x32768x32, .f32⟩
  | .hbm, ⟨65, _⟩ => ⟨S8x32768x32, .f32⟩
  | .hbm, ⟨66, _⟩ => ⟨S8x32768x32, .f32⟩
  | .hbm, ⟨67, _⟩ => ⟨S_, .f32⟩
  | .hbm, ⟨68, _⟩ => ⟨S8x32768x32, .f32⟩
  | .hbm, ⟨69, _⟩ => ⟨S8x32768x32, .f32⟩
  | .hbm, ⟨70, _⟩ => ⟨S_, .f32⟩
  | .hbm, ⟨71, _⟩ => ⟨S8x32768x32, .f32⟩
  | .hbm, ⟨72, _⟩ => ⟨S8x32768x32, .f32⟩
  | .hbm, ⟨73, _⟩ => ⟨S8x32768x32, .f32⟩
  | .hbm, ⟨74, _⟩ => ⟨S8x32768x1, .f32⟩
  | .hbm, ⟨75, _⟩ => ⟨S1x1x1, .f32⟩
  | .hbm, ⟨76, _⟩ => ⟨S8x32768x1, .f32⟩
  | .hbm, ⟨77, _⟩ => ⟨S8x32768x1, .f32⟩
  | .hbm, ⟨78, _⟩ => ⟨S8x32768, .f32⟩
  | .hbm, ⟨79, _⟩ => ⟨S8x2048x2048, .f32⟩
  | .hbm, ⟨80, _⟩ => ⟨S_, .i32⟩
  | .hbm, ⟨81, _⟩ => ⟨S32768, .i32⟩
  | .hbm, ⟨82, _⟩ => ⟨S32768, .i1⟩
  | .hbm, ⟨83, _⟩ => ⟨S_, .i32⟩
  | .hbm, ⟨84, _⟩ => ⟨S32768, .i32⟩
  | .hbm, ⟨85, _⟩ => ⟨S32768, .i32⟩
  | .hbm, ⟨86, _⟩ => ⟨S32768, .i32⟩
  | .hbm, ⟨87, _⟩ => ⟨S_, .i32⟩
  | .hbm, ⟨88, _⟩ => ⟨S32768, .i32⟩
  | .hbm, ⟨89, _⟩ => ⟨S32768, .i1⟩
  | .hbm, ⟨90, _⟩ => ⟨S_, .i32⟩
  | .hbm, ⟨91, _⟩ => ⟨S32768, .i32⟩
  | .hbm, ⟨92, _⟩ => ⟨S32768, .i32⟩
  | .hbm, ⟨93, _⟩ => ⟨S32768, .i32⟩
  | .hbm, ⟨94, _⟩ => ⟨S32768x1, .i32⟩
  | .hbm, ⟨95, _⟩ => ⟨S32768x1, .i32⟩
  | .hbm, ⟨96, _⟩ => ⟨S32768x2, .i32⟩
  | .hbm, ⟨97, _⟩ => ⟨S8x2048x2048, .f32⟩
  | .hbm, ⟨98, _⟩ => ⟨S_, .i32⟩
  | .hbm, ⟨99, _⟩ => ⟨S32768, .i32⟩
  | .hbm, ⟨100, _⟩ => ⟨S32768, .i1⟩
  | .hbm, ⟨101, _⟩ => ⟨S_, .i32⟩
  | .hbm, ⟨102, _⟩ => ⟨S32768, .i32⟩
  | .hbm, ⟨103, _⟩ => ⟨S32768, .i32⟩
  | .hbm, ⟨104, _⟩ => ⟨S32768, .i32⟩
  | .hbm, ⟨105, _⟩ => ⟨S_, .i32⟩
  | .hbm, ⟨106, _⟩ => ⟨S32768, .i32⟩
  | .hbm, ⟨107, _⟩ => ⟨S32768, .i1⟩
  | .hbm, ⟨108, _⟩ => ⟨S_, .i32⟩
  | .hbm, ⟨109, _⟩ => ⟨S32768, .i32⟩
  | .hbm, ⟨110, _⟩ => ⟨S32768, .i32⟩
  | .hbm, ⟨111, _⟩ => ⟨S32768, .i32⟩
  | .hbm, ⟨112, _⟩ => ⟨S32768x1, .i32⟩
  | .hbm, ⟨113, _⟩ => ⟨S32768x1, .i32⟩
  | .hbm, ⟨114, _⟩ => ⟨S32768x2, .i32⟩
  | .hbm, ⟨115, _⟩ => ⟨S8x2048x2048, .f32⟩
  | .hbm, ⟨116, _⟩ => ⟨S8x1x2048x2048, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_7 : Ref sig .tc := ⟨.hbm, 80, rfl⟩
abbrev main_v53 : Ref sig .tc := ⟨.hbm, 81, rfl⟩
abbrev main_v54 : Ref sig .tc := ⟨.hbm, 82, rfl⟩
abbrev main_c_8 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_9 : Ref sig .tc := ⟨.hbm, 87, rfl⟩
abbrev main_v58 : Ref sig .tc := ⟨.hbm, 88, rfl⟩
abbrev main_v59 : Ref sig .tc := ⟨.hbm, 89, rfl⟩
abbrev main_c_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_11 : Ref sig .tc := ⟨.hbm, 98, rfl⟩
abbrev main_v67 : Ref sig .tc := ⟨.hbm, 99, rfl⟩
abbrev main_v68 : Ref sig .tc := ⟨.hbm, 100, rfl⟩
abbrev main_c_12 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_13 : Ref sig .tc := ⟨.hbm, 105, rfl⟩
abbrev main_v72 : Ref sig .tc := ⟨.hbm, 106, rfl⟩
abbrev main_v73 : Ref sig .tc := ⟨.hbm, 107, rfl⟩
abbrev main_c_14 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]

class Facts₀ : Prop where
  slices_S2x32768_S1x32768_0_0 : S2x32768.Slices ![0, 0] S1x32768
  shapeCasts_S1x32768_S32768 : S1x32768.ShapeCasts S32768
  slices_S2x32768_S1x32768_1_0 : S2x32768.Slices ![1, 0] S1x32768
  bcast_S_S32768 : S_.BroadcastsInDim S32768 (![] : Fin 0 → Fin S32768.rank)
  bcast_S32768_S32768x1_0 : S32768.BroadcastsInDim S32768x1 (![0] : Fin 1 → Fin S32768x1.rank)
  reducesTo_S8x32768x3_S8x32768_d2 : S8x32768x3.ReducesTo [2] S8x32768
  h_S_ : 0 < S_.numel
  bcast_S8x32768_S8x32768x1_0_1 : S8x32768.BroadcastsInDim S8x32768x1 (![0, 1] : Fin 2 → Fin S8x32768x1.rank)
  bcast_S_S8x32768x1 : S_.BroadcastsInDim S8x32768x1 (![] : Fin 0 → Fin S8x32768x1.rank)
  bcast_S32768_S1x32768x1_1 : S32768.BroadcastsInDim S1x32768x1 (![1] : Fin 1 → Fin S1x32768x1.rank)
  bcast_S1x32768x1_S8x32768x1_0_1_2 : S1x32768x1.BroadcastsInDim S8x32768x1 (![0, 1, 2] : Fin 3 → Fin S8x32768x1.rank)
  bcast_S_S1x32768x1 : S_.BroadcastsInDim S1x32768x1 (![] : Fin 0 → Fin S1x32768x1.rank)
  bcast_S32768x8_S1x32768x8_1_2 : S32768x8.BroadcastsInDim S1x32768x8 (![1, 2] : Fin 2 → Fin S1x32768x8.rank)
  bcast_S1x32768x8_S8x32768x8_0_1_2 : S1x32768x8.BroadcastsInDim S8x32768x8 (![0, 1, 2] : Fin 3 → Fin S8x32768x8.rank)
  concatenates_S8x32768x1_S8x32768x1_S8x32768x8_S8x32768x10_d2 : Shape.Concatenates [S8x32768x1, S8x32768x1, S8x32768x8] S8x32768x10 2
  bcast_S32_S1x1x32_2 : S32.BroadcastsInDim S1x1x32 (![2] : Fin 1 → Fin S1x1x32.rank)
  bcast_S1x1x32_S8x32768x32_0_1_2 : S1x1x32.BroadcastsInDim S8x32768x32 (![0, 1, 2] : Fin 3 → Fin S8x32768x32.rank)
  bcast_S_S8x32768x32 : S_.BroadcastsInDim S8x32768x32 (![] : Fin 0 → Fin S8x32768x32.rank)
  bcast_S1_S1x1x1_2 : S1.BroadcastsInDim S1x1x1 (![2] : Fin 1 → Fin S1x1x1.rank)
  bcast_S1x1x1_S8x32768x1_0_1_2 : S1x1x1.BroadcastsInDim S8x32768x1 (![0, 1, 2] : Fin 3 → Fin S8x32768x1.rank)
  shapeCasts_S8x32768x1_S8x32768 : S8x32768x1.ShapeCasts S8x32768
  bcast_S_S8x2048x2048 : S_.BroadcastsInDim S8x2048x2048 (![] : Fin 0 → Fin S8x2048x2048.rank)
  concatenates_S32768x1_S32768x1_S32768x2_d1 : Shape.Concatenates [S32768x1, S32768x1] S32768x2 1
  bcast_S8x2048x2048_S8x1x2048x2048_0_2_3 : S8x2048x2048.BroadcastsInDim S8x1x2048x2048 (![0, 2, 3] : Fin 3 → Fin S8x1x2048x2048.rank)
  gather_S8x2048x3_S32768x1_S8x32768x3_02_1_n_n_1_1_813_wf : GatherDims.WF S8x2048x3 S32768x1 S8x32768x3 [0, 2] [1] [] [1] [] 1 ![8, 1, 3]
  gather_S16x8_S32768x1_S32768x8_1_0_n_n_0_1_18_wf : GatherDims.WF S16x8 S32768x1 S32768x8 [1] [0] [] [0] [] 1 ![1, 8]
  dot_S8x32768x10_S10x32_S8x32768x32_2_0_01_1_n_n_wf : DotDims.WF S8x32768x10 S10x32 S8x32768x32 [2] [0] [0, 1] [1] [] []
  dot_S8x32768x32_S32x1_S8x32768x1_2_0_01_1_n_n_wf : DotDims.WF S8x32768x32 S32x1 S8x32768x1 [2] [0] [0, 1] [1] [] []
  scatter_S8x2048x2048_S32768x2_S8x32768_0_12_12_1_wf : ScatterDims.WF S8x2048x2048 S32768x2 S8x32768 [0] [1, 2] [1, 2] 1

variable [Facts₀]

def gather_S8x2048x3_S32768x1_S8x32768x3_02_1_n_n_1_1_813 : GatherDims S8x2048x3 S32768x1 S8x32768x3 where
  offsetDims := [0, 2]
  collapsedSliceDims := [1]
  operandBatchingDims := []
  startIndicesBatchingDims := []
  startIndexMap := [1]
  indexVectorDim := 1
  sliceSizes := ![8, 1, 3]
  wf := gather_S8x2048x3_S32768x1_S8x32768x3_02_1_n_n_1_1_813_wf
def gather_S16x8_S32768x1_S32768x8_1_0_n_n_0_1_18 : GatherDims S16x8 S32768x1 S32768x8 where
  offsetDims := [1]
  collapsedSliceDims := [0]
  operandBatchingDims := []
  startIndicesBatchingDims := []
  startIndexMap := [0]
  indexVectorDim := 1
  sliceSizes := ![1, 8]
  wf := gather_S16x8_S32768x1_S32768x8_1_0_n_n_0_1_18_wf
def dot_S8x32768x10_S10x32_S8x32768x32_2_0_01_1_n_n : DotDims S8x32768x10 S10x32 S8x32768x32 where
  lhsContracting := [2]
  rhsContracting := [0]
  lhsNonContracting := [0, 1]
  rhsNonContracting := [1]
  lhsBatch := []
  rhsBatch := []
  wf := dot_S8x32768x10_S10x32_S8x32768x32_2_0_01_1_n_n_wf
def dot_S8x32768x32_S32x1_S8x32768x1_2_0_01_1_n_n : DotDims S8x32768x32 S32x1 S8x32768x1 where
  lhsContracting := [2]
  rhsContracting := [0]
  lhsNonContracting := [0, 1]
  rhsNonContracting := [1]
  lhsBatch := []
  rhsBatch := []
  wf := dot_S8x32768x32_S32x1_S8x32768x1_2_0_01_1_n_n_wf
def scatter_S8x2048x2048_S32768x2_S8x32768_0_12_12_1 : ScatterDims S8x2048x2048 S32768x2 S8x32768 where
  updateWindowDims := [0]
  insertedWindowDims := [1, 2]
  scatterDimsToOperandDims := [1, 2]
  indexVectorDim := 1
  wf := scatter_S8x2048x2048_S32768x2_S8x32768_0_12_12_1_wf

class Facts : Prop extends Facts₀ where

variable [Facts]
-- ==== Proof.Spec.lean ====
/-
  One entry of the edge-bias array, as a function of the numbers it depends on, over the extended reals.

  For one batch element and one edge the inputs are: the difference vector `d` of the two end points (three
  coordinates), the edge's rest length `rest`, the eight structural numbers `st` of the edge's type, and the
  weights of a two-layer perceptron (`w1 : 10 × 32`, `b1 : 32`, `w2 : 32`, `b2`). The entry is

      b2 + ∑ j, w2 j · silu (b1 j + ∑ f, w1 f j · x f),      silu y = y · 1/(1 + e^(-y)),

  where the ten features `x` are the squared length `|d|²`, the relative stretch
  `(√(|d|² + ε) − rest) / (rest + ε)`, and then the eight structural numbers.

  The two programs compared in this certificate both compute this number; they differ in the order of the factors
  in each product of the two contractions (weight · feature against feature · weight), which does not matter
  because multiplication of extended reals is commutative, in a leading `0 +` in front of the squared length,
  and in spelling the logistic function as one operation or as its defining quotient. No finiteness is used.
-/
import Idealize.ShloMosaic.PureOps.Ideal
import Idealize.ShloMosaic.PureOps.Ideal.Laws

noncomputable section

open scoped BigOperators

namespace Cert.EdgeBias

open Idealize.ShloMosaic

/-- The small positive number `ε` (the single-precision value nearest to 10⁻⁹) added under the square root and to
    the rest length. Both programs spell it by the same word, so its value is never opened. -/
def eps : EReal := Ideal.ofBits .f32 0x3089705F#32

/-- The squared length of the difference vector. -/
def dist2 (d : Fin 3 → EReal) : EReal := ∑ k : Fin 3, d k * d k

/-- The relative stretch of the edge: `(√(|d|² + ε) − rest) / (rest + ε)`. -/
def stretch (d : Fin 3 → EReal) (rest : EReal) : EReal :=
  Ideal.div (Ideal.sqrt (dist2 d + eps) - rest) (rest + eps)

/-- The ten features of an edge: squared length, relative stretch, then the eight structural numbers. -/
def feat (d : Fin 3 → EReal) (rest : EReal) (st : Fin 8 → EReal) : Fin 10 → EReal :=
  Fin.cons (dist2 d) (Fin.cons (stretch d rest) st)

theorem feat_zero (d : Fin 3 → EReal) (rest : EReal) (st : Fin 8 → EReal) : feat d rest st 0 = dist2 d := rfl

theorem feat_one (d : Fin 3 → EReal) (rest : EReal) (st : Fin 8 → EReal) : feat d rest st 1 = stretch d rest := rfl

theorem feat_add_two (d : Fin 3 → EReal) (rest : EReal) (st : Fin 8 → EReal) (i : Fin 8) :
    feat d rest st i.succ.succ = st i := rfl

/-- The first layer before its activation, at hidden unit `j`: `b1 j + ∑ f, w1 f j · x f`. -/
def hidden (x : Fin 10 → EReal) (w1 : Fin 10 → Fin 32 → EReal) (b1 : Fin 32 → EReal) (j : Fin 32) : EReal :=
  (∑ f : Fin 10, w1 f j * x f) + b1 j

/-- The activation `y ↦ y · logistic y`. -/
def silu (y : EReal) : EReal := y * Ideal.logistic y

/-- One entry of the edge-bias array. -/
def edgeVal (d : Fin 3 → EReal) (rest : EReal) (st : Fin 8 → EReal) (w1 : Fin 10 → Fin 32 → EReal)
    (b1 : Fin 32 → EReal) (w2 : Fin 32 → EReal) (b2 : EReal) : EReal :=
  (∑ j : Fin 32, w2 j * silu (hidden (feat d rest st) w1 b1 j)) + b2

/-- The first layer with each product written feature · weight is the same number. -/
theorem hidden_comm (x : Fin 10 → EReal) (w1 : Fin 10 → Fin 32 → EReal) (b1 : Fin 32 → EReal) (j : Fin 32) :
    (∑ f : Fin 10, x f * w1 f j) + b1 j = hidden x w1 b1 j := by
  unfold hidden
  exact congrArg (· + b1 j) (Finset.sum_congr rfl fun f _ => mul_comm _ _)

/-- The second layer with each product written activation · weight is the same number. -/
theorem edgeVal_comm (d : Fin 3 → EReal) (rest : EReal) (st : Fin 8 → EReal) (w1 : Fin 10 → Fin 32 → EReal)
    (b1 : Fin 32 → EReal) (w2 : Fin 32 → EReal) (b2 : EReal) :
    (∑ j : Fin 32, silu (hidden (feat d rest st) w1 b1 j) * w2 j) + b2 = edgeVal d rest st w1 b1 w2 b2 := by
  unfold edgeVal
  exact congrArg (· + b2) (Finset.sum_congr rfl fun j _ => mul_comm _ _)

/-- The single-precision word of the number one denotes one. -/
theorem ofBits_one_f32 : Ideal.ofBits .f32 0x3F800000#32 = 1 := by
  simp [Ideal.ofBits, Ideal.ieee]
  first
    | (norm_cast; norm_num)
    | (rw [← EReal.coe_mul, ← EReal.coe_one]; exact congrArg _ (by norm_num))

/-- The activation with the logistic function spelt as its defining quotient `1 / (1 + e^(-y))`. -/
theorem silu_quotient (y : EReal) : y * Ideal.div 1 (1 + Ideal.exp (-y)) = silu y := rfl

end Cert.EdgeBias

end
-- ==== Proof.LibMatDot.lean ====
/-
  The product of an m×k matrix by a k×n matrix, read at one entry, at the ideal values: both the vector unit's
  matrix product into a zero accumulator and the host's `dot_general` with the dimension numbers
  (contracting [1]×[0], no batch axis) are the sum over the contracted coordinate of the products of the entries,
  `∑ c, A (a, c) * B (c, b)`, whatever the element formats of the operands and whatever proof of well-formedness
  the record of dimension numbers carries. Also three broadcasts read at an entry: a column `[a, 1]` laid across
  `b` columns (the vector unit's and the host's), a vector of `n` entries laid along every row through a one-row
  matrix (the host's two-step form), and a scalar constant laid over a shape.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

open scoped BigOperators

namespace Cert.Lib.MatDot

open Idealize.ShloMosaic Idealize.ShloMosaic.ValueIdx

variable {m k n : Nat} {φ₁ φ₂ : FTy}

/-- The left operand's entry that output entry `(a, b)` meets at contraction position `c` is `(a, c)`. -/
theorem lhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's entry there is `(c, b)`. -/
theorem rhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's matrix product at entry `(a, b)` is `∑ c, A (a, c) * B (c, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

/-- The vector unit's matrix product into the zero accumulator at entry `(a, b)` is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

variable {α : Type}

/-- A column `[a, 1]` laid across `b` columns by the vector unit's broadcast reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` along axes `[0, 1]` reads the same. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `n` entries made a one-row matrix along axis 1 by the host reads, at `(u, t)`, the vector at `t`. -/
theorem broadcastInDim_vec_oneRow_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) fun ax => ?_
  match ax with
  | ⟨0, _⟩ =>
    show t.val = if n = 1 then 0 else t.val
    split
    · have := t.isLt; omega
    · rfl

/-- So the host's two-step row broadcast (a vector to one row, the row down `m` rows) reads, at `(r, t)`, the vector at `t`. -/
theorem broadcastInDim_vec_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) :=
  (Idealize.ShloMosaic.broadcastInDim_oneRow_apply h2 _ r t).trans (broadcastInDim_vec_oneRow_apply h1 x 0 t)

/-- The vector unit's form of the same: the vector cast to one row, the row laid down `m` rows. -/
theorem broadcastTo_vec_rows_apply {m n : ℕ} (h1 : (⟨1, ![n]⟩ : Shape).ShapeCasts ⟨2, ![1, n]⟩)
    (h2 : (⟨2, ![1, n]⟩ : Shape).Broadcasts ⟨2, ![m, n]⟩) (x : (⟨1, ![n]⟩ : Shape).Idx → α) (r : Fin m) (t : Fin n) :
    broadcastTo ⟨2, ![m, n]⟩ (shapeCast ⟨2, ![1, n]⟩ x h1) h2 (ix2 r t) = x (ix1 t) :=
  (broadcastTo_1b_ab_apply _ h2 r t).trans (shapeCast_a_1a_apply x h1 0 t)

end Cert.Lib.MatDot

end
-- ==== Proof.Row.lean ====
/-
  One row of an output block of the edge-bias kernel.

  The kernel's body handles the eight batch elements one after the other, and for each of them computes the same
  function of the block's columns (the edges of the block): from the batch element's three rows of coordinate
  differences `d`, the row of rest lengths `v1`, the eight rows of structural numbers `v3`, and the weights
  (`v6` = first layer, 32 × 10; `v8` = its bias, a column of 32; `v11` = second layer, a row of 32; `v13` its
  bias), it forms the ten feature rows (squared length, relative stretch, the eight structural rows), multiplies
  by the first layer, adds the bias, applies `y ↦ y · logistic y`, multiplies by the second layer and adds its
  bias: a row of one number per edge. `edgeRow` below is that function, spelt with the body's own operations, so
  that each of the eight rows the body stores IS `edgeRow` of the corresponding loads, by unfolding.

  Read at column `y`, at the ideal values, the row is the specification's `edgeVal` of the column's numbers:
  a change of float format is the identity, the sum over the three coordinates and the two matrix products are
  plain sums, and the ten feature rows joined along the row axis are the specification's feature vector.
-/
import proofs.«112120_j12816182411320_2_alg».proof.Proof.Gen.KernelIdeal.Skeleton
import proofs.«112120_j12816182411320_2_alg».proof.Proof.Spec
import proofs.«112120_j12816182411320_2_alg».proof.Proof.LibMatDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Row

open Cert.KernelIdeal Cert.KernelIdeal.Gen Idealize.ShloMosaic Idealize.ShloMosaic.ValueIdx Cert.EdgeBias

section Generic

variable {F : FTy → Type} [FloatOps F]

/-- The row of squared lengths: the three coordinate rows squared and summed. -/
def sqLen (d : Vec F S1x3x4096 .f32) : FVec F S1x4096 .f32 :=
  shapeCast S1x4096 (multiReduction .add [0] S4096
    (mulf (shapeCast S3x4096 d shapeCasts_S1x3x4096_S3x4096) (shapeCast S3x4096 d shapeCasts_S1x3x4096_S3x4096))
    0x00000000#32 reduces_S3x4096_S4096 (.inl rfl) rfl) shapeCasts_S4096_S1x4096

/-- The row of relative stretches `(√(|d|² + ε) − rest) / (rest + ε)`. -/
def relStretch (v1 : FVec F S1x4096 .f32) (d : Vec F S1x3x4096 .f32) : FVec F S1x4096 .f32 :=
  divf (subf (sqrt (addf (sqLen d) (broadcast S1x4096 (Scalar.ofBits .f32 0x3089705F#32)))) v1)
    (addf v1 (broadcast S1x4096 (Scalar.ofBits .f32 0x3089705F#32)))

/-- The ten feature rows. -/
def features (v1 : FVec F S1x4096 .f32) (v3 : FVec F S8x4096 .f32) (d : Vec F S1x3x4096 .f32) : FVec F S10x4096 .f32 :=
  concatenate S10x4096 0 [⟨S1x4096, sqLen d⟩, ⟨S1x4096, relStretch v1 d⟩, ⟨S8x4096, v3⟩]
    concatenates_S1x4096_S1x4096_S8x4096_S10x4096_d0

/-- The first layer before its activation: 32 rows. -/
def preAct (v1 : FVec F S1x4096 .f32) (v3 : FVec F S8x4096 .f32) (v6 : FVec F S32x10 .bf16) (v8 : FVec F S32x1 .f32)
    (d : Vec F S1x3x4096 .f32) : FVec F S32x4096 .f32 :=
  addf (matmul dot_S32x10_S10x4096_S32x4096_1_0_0_1_n_n none v6 (truncf .bf16 (features v1 v3 d) bitsLt_bf16_f32)
      (constant S32x4096 .f32 0x00000000#32))
    (broadcastTo S32x4096 v8 broadcasts_S32x1_S32x4096)

/-- The activated first layer, in the second product's operand format. -/
def act (v1 : FVec F S1x4096 .f32) (v3 : FVec F S8x4096 .f32) (v6 : FVec F S32x10 .bf16) (v8 : FVec F S32x1 .f32)
    (d : Vec F S1x3x4096 .f32) : FVec F S32x4096 .bf16 :=
  truncf .bf16 (mulf (preAct v1 v3 v6 v8 d) (logistic (preAct v1 v3 v6 v8 d))) bitsLt_bf16_f32

/-- The second layer applied to an activated first layer, without its bias. -/
def second (v11 : FVec F S1x32 .bf16) (a : FVec F S32x4096 .bf16) : FVec F S1x4096 .f32 :=
  matmul dot_S1x32_S32x4096_S1x4096_1_0_0_1_n_n none v11 a (constant S1x4096 .f32 0x00000000#32)

/-- The second layer's bias added along the row. -/
def addBias (v13 : FVec F S1x1 .f32) (z : FVec F S1x4096 .f32) : FVec F S1x4096 .f32 :=
  addf z (broadcastTo S1x4096 v13 broadcasts_S1x1_S1x4096)

/-- One batch element's row of the output block. -/
def edgeRow (v1 : FVec F S1x4096 .f32) (v3 : FVec F S8x4096 .f32) (v6 : FVec F S32x10 .bf16) (v8 : FVec F S32x1 .f32)
    (v11 : FVec F S1x32 .bf16) (v13 : FVec F S1x1 .f32) (d : Vec F S1x3x4096 .f32) : FVec F S1x4096 .f32 :=
  addBias v13 (second v11 (act v1 v3 v6 v8 d))

/-! ### The body's stored rows are `edgeRow` -/

variable (v1 : FVec F S1x4096 .f32) (v3 : FVec F S8x4096 .f32) (v6 : FVec F S32x10 .bf16) (v8 : FVec F S32x1 .f32)
  (v11 : FVec F S1x32 .bf16) (v13 : FVec F S1x1 .f32) (d : Vec F S1x3x4096 .f32)

theorem pay9_eq : k0_pay9 v1 v3 v6 v8 v11 v13 d = edgeRow v1 v3 v6 v8 v11 v13 d := rfl
theorem pay10_eq : k0_pay10 v1 v3 v6 v8 v11 v13 d = edgeRow v1 v3 v6 v8 v11 v13 d := rfl
theorem pay11_eq : k0_pay11 v1 v3 v6 v8 v11 v13 d = edgeRow v1 v3 v6 v8 v11 v13 d := rfl
theorem pay14_eq : k0_pay14 v1 v3 v6 v8 v11 v13 d = edgeRow v1 v3 v6 v8 v11 v13 d := rfl
theorem pay13_eq : k0_pay13 v13 (k0_pay12 v1 v3 v6 v8 v11 d) = edgeRow v1 v3 v6 v8 v11 v13 d := rfl
theorem pay15_eq : k0_pay15 v1 v3 v6 v8 d = act v1 v3 v6 v8 d := rfl

theorem pay8_eq (w0 : Vec F S1x4096 .f32) (w2 : Vec F S8x4096 .f32) (w4 : Vec F S32x10 .f32) (w7 : Vec F S32x1 .f32)
    (w9 : Vec F S1x32 .f32) (w12 : Vec F S1x1 .f32) :
    k0_pay8 w0 w2 w4 w7 w9 w12 d
      = edgeRow (k0_pay2 w0) (k0_pay3 w2) (k0_pay4 w4) (k0_pay5 w7) (k0_pay6 w9) (k0_pay7 w12) d := rfl

/-- The block the body stores: the eight rows, joined along the batch axis. -/
theorem pay1_eq (r0 r1 r2 r3 r4 r5 : FVec F S1x4096 .f32) (d6 d7 : Vec F S1x3x4096 .f32) :
    k0_pay1 v1 v3 v6 v8 v11 v13 r0 r1 r2 r3 r4 r5 (act v1 v3 v6 v8 d6) d7
      = concatenate S8x4096 0 [⟨S1x4096, r0⟩, ⟨S1x4096, r1⟩, ⟨S1x4096, r2⟩, ⟨S1x4096, r3⟩, ⟨S1x4096, r4⟩, ⟨S1x4096, r5⟩,
          ⟨S1x4096, edgeRow v1 v3 v6 v8 v11 v13 d6⟩, ⟨S1x4096, edgeRow v1 v3 v6 v8 v11 v13 d7⟩]
          concatenates_S1x4096_S1x4096_S1x4096_S1x4096_S1x4096_S1x4096_S1x4096_S1x4096_S8x4096_d0 := rfl

end Generic

end Cert.KernelIdeal.Row

end
-- ==== Proof.Entry.lean ====
/-
  A row of an output block read at one column, at the ideal values.

  At column `y` the row `edgeRow` of a batch element is the specification's `edgeVal` of: the three coordinate
  differences of that column, the column's rest length, its eight structural numbers, and the weights read
  through the layouts the kernel is handed (first layer transposed, biases as a column and as a single entry).
  Each step is one operation read at an entry: a cast that adds or drops a leading unit axis keeps the other
  coordinates; a sum over the leading axis of three rows is the sum of the three entries of the column; a
  matrix product into a zero accumulator is the sum over the contracted coordinate; rows joined along the
  leading axis are read in the piece the row number falls in; a change of float format is the identity.
-/
import proofs.«112120_j12816182411320_2_alg».proof.Proof.Row

noncomputable section

open scoped BigOperators

namespace Cert.KernelIdeal.Row

open Cert.KernelIdeal Cert.KernelIdeal.Gen Idealize.ShloMosaic Idealize.ShloMosaic.ValueIdx Cert.EdgeBias

/-- A column index of the three coordinate rows, with the row put back: row `k`, column `y`. -/
theorem lift_row (y : Fin 4096) (k : Fin (S3x4096.size 0)) :
    reduces_S3x4096_S4096.lift (ix1 y) k = ix2 (⟨k.val, k.isLt⟩ : Fin 3) y := by
  funext c; apply Fin.ext
  fin_cases c <;> rfl

/-- The squared length at column `y`: the sum of the squares of the column's three coordinate differences. -/
theorem sqLen_apply (d : Vec Ideal S1x3x4096 .f32) (y : Fin 4096) :
    sqLen (F := Ideal) d (ix2 (0 : Fin 1) y) = dist2 (fun k : Fin 3 => d (ix3 (0 : Fin 1) k y)) := by
  unfold sqLen
  refine (shapeCast_a_1a_apply _ shapeCasts_S4096_S1x4096 0 y).trans ?_
  refine (Ideal.multiReduction_add_single _ _ reduces_S3x4096_S4096 _ _ (ix1 y)).trans ?_
  unfold dist2
  refine Finset.sum_congr rfl fun k _ => ?_
  rw [lift_row]
  exact congrArg₂ (· * ·) (shapeCast_1ab_ab_apply d shapeCasts_S1x3x4096_S3x4096 _ y)
    (shapeCast_1ab_ab_apply d shapeCasts_S1x3x4096_S3x4096 _ y)

/-- The relative stretch at column `y`. -/
theorem relStretch_apply (v1 : FVec Ideal S1x4096 .f32) (d : Vec Ideal S1x3x4096 .f32) (y : Fin 4096) :
    relStretch (F := Ideal) v1 d (ix2 (0 : Fin 1) y)
      = stretch (fun k : Fin 3 => d (ix3 (0 : Fin 1) k y)) (v1 (ix2 (0 : Fin 1) y)) := by
  unfold relStretch stretch eps
  show Ideal.div (Ideal.sqrt (sqLen (F := Ideal) d (ix2 (0 : Fin 1) y) + Ideal.ofBits .f32 0x3089705F#32) - v1 (ix2 (0 : Fin 1) y))
      (v1 (ix2 (0 : Fin 1) y) + Ideal.ofBits .f32 0x3089705F#32) = _
  rw [sqLen_apply]

/-- The ten feature rows at row `f`, column `y`: the specification's feature vector of the column, at `f`. -/
theorem features_apply (v1 : FVec Ideal S1x4096 .f32) (v3 : FVec Ideal S8x4096 .f32) (d : Vec Ideal S1x3x4096 .f32)
    (f : Fin 10) (y : Fin 4096) :
    features (F := Ideal) v1 v3 d (ix2 f y)
      = feat (fun k : Fin 3 => d (ix3 (0 : Fin 1) k y)) (v1 (ix2 (0 : Fin 1) y)) (fun j : Fin 8 => v3 (ix2 j y)) f := by
  unfold features
  refine Fin.cases ?_ (fun f' => Fin.cases ?_ (fun g => ?_) f') f
  · refine (concatenate_apply_piece (t := S10x4096) (0 : Fin 2) [⟨S1x4096, sqLen (F := Ideal) d⟩, ⟨S1x4096, relStretch (F := Ideal) v1 d⟩, ⟨S8x4096, v3⟩] concatenates_S1x4096_S1x4096_S8x4096_S10x4096_d0 (ix2 (0 : Fin 10) y) 0
      (by simp) S1x4096 (sqLen (F := Ideal) d) rfl rfl 0 rfl (ix2 (0 : Fin 1) y)
      (fun b hb => by match b with | ⟨0, _⟩ => exact absurd rfl hb | ⟨1, _⟩ => rfl) rfl).trans ?_
    rw [feat_zero]; exact sqLen_apply d y
  · refine (concatenate_apply_piece (t := S10x4096) (0 : Fin 2) [⟨S1x4096, sqLen (F := Ideal) d⟩, ⟨S1x4096, relStretch (F := Ideal) v1 d⟩, ⟨S8x4096, v3⟩] concatenates_S1x4096_S1x4096_S8x4096_S10x4096_d0 (ix2 (Fin.succ (0 : Fin 9)) y) 1
      (by simp) S1x4096 (relStretch (F := Ideal) v1 d) rfl rfl 1 rfl (ix2 (0 : Fin 1) y)
      (fun b hb => by match b with | ⟨0, _⟩ => exact absurd rfl hb | ⟨1, _⟩ => rfl) rfl).trans ?_
    exact relStretch_apply v1 d y
  · refine (concatenate_apply_piece (t := S10x4096) (0 : Fin 2) [⟨S1x4096, sqLen (F := Ideal) d⟩, ⟨S1x4096, relStretch (F := Ideal) v1 d⟩, ⟨S8x4096, v3⟩] concatenates_S1x4096_S1x4096_S8x4096_S10x4096_d0 (ix2 g.succ.succ y) 2
      (by simp) S8x4096 v3 rfl rfl 2 rfl (ix2 g y)
      (fun b hb => by match b with | ⟨0, _⟩ => exact absurd rfl hb | ⟨1, _⟩ => rfl)
      (by show 2 + g.val = g.val + 1 + 1; omega)).trans ?_
    rfl

/-- The first layer before its activation, at hidden unit `h` and column `y`. -/
theorem preAct_apply (v1 : FVec Ideal S1x4096 .f32) (v3 : FVec Ideal S8x4096 .f32) (v6 : FVec Ideal S32x10 .bf16)
    (v8 : FVec Ideal S32x1 .f32) (d : Vec Ideal S1x3x4096 .f32) (h : Fin 32) (y : Fin 4096) :
    preAct (F := Ideal) v1 v3 v6 v8 d (ix2 h y)
      = Cert.EdgeBias.hidden (feat (fun k : Fin 3 => d (ix3 (0 : Fin 1) k y)) (v1 (ix2 (0 : Fin 1) y)) (fun j : Fin 8 => v3 (ix2 j y)))
          (fun (f : Fin 10) (h : Fin 32) => v6 (ix2 h f)) (fun h : Fin 32 => v8 (ix2 h (0 : Fin 1))) h := by
  unfold preAct Cert.EdgeBias.hidden
  refine congrArg₂ (· + ·) ?_ (Cert.Lib.MatDot.broadcastTo_col_apply v8 broadcasts_S32x1_S32x4096 h y)
  refine (Cert.Lib.MatDot.matmul_zero_apply dot_S32x10_S10x4096_S32x4096_1_0_0_1_n_n_wf none v6
    (truncf .bf16 (features (F := Ideal) v1 v3 d) bitsLt_bf16_f32) h y).trans ?_
  refine Finset.sum_congr rfl fun f _ => ?_
  exact congrArg (v6 (ix2 h f) * ·) (features_apply v1 v3 d f y)

/-- The activated first layer at hidden unit `h` and column `y`. -/
theorem act_apply (v1 : FVec Ideal S1x4096 .f32) (v3 : FVec Ideal S8x4096 .f32) (v6 : FVec Ideal S32x10 .bf16)
    (v8 : FVec Ideal S32x1 .f32) (d : Vec Ideal S1x3x4096 .f32) (h : Fin 32) (y : Fin 4096) :
    act (F := Ideal) v1 v3 v6 v8 d (ix2 h y)
      = silu (Cert.EdgeBias.hidden (feat (fun k : Fin 3 => d (ix3 (0 : Fin 1) k y)) (v1 (ix2 (0 : Fin 1) y)) (fun j : Fin 8 => v3 (ix2 j y)))
          (fun (f : Fin 10) (h : Fin 32) => v6 (ix2 h f)) (fun h : Fin 32 => v8 (ix2 h (0 : Fin 1))) h) := by
  unfold act silu
  show preAct (F := Ideal) v1 v3 v6 v8 d (ix2 h y) * Ideal.logistic (preAct (F := Ideal) v1 v3 v6 v8 d (ix2 h y)) = _
  rw [preAct_apply]

/-- One batch element's row at column `y` is the specification's entry of the column's numbers. -/
theorem edgeRow_apply (v1 : FVec Ideal S1x4096 .f32) (v3 : FVec Ideal S8x4096 .f32) (v6 : FVec Ideal S32x10 .bf16)
    (v8 : FVec Ideal S32x1 .f32) (v11 : FVec Ideal S1x32 .bf16) (v13 : FVec Ideal S1x1 .f32) (d : Vec Ideal S1x3x4096 .f32)
    (y : Fin 4096) :
    edgeRow (F := Ideal) v1 v3 v6 v8 v11 v13 d (ix2 (0 : Fin 1) y)
      = edgeVal (fun k : Fin 3 => d (ix3 (0 : Fin 1) k y)) (v1 (ix2 (0 : Fin 1) y)) (fun j : Fin 8 => v3 (ix2 j y))
          (fun (f : Fin 10) (h : Fin 32) => v6 (ix2 h f)) (fun h : Fin 32 => v8 (ix2 h (0 : Fin 1)))
          (fun h : Fin 32 => v11 (ix2 (0 : Fin 1) h)) (v13 (ix2 (0 : Fin 1) (0 : Fin 1))) := by
  unfold edgeRow addBias second edgeVal
  refine congrArg₂ (· + ·) ?_ (Cert.Lib.MatDot.broadcastTo_col_apply v13 broadcasts_S1x1_S1x4096 (0 : Fin 1) y)
  refine (Cert.Lib.MatDot.matmul_zero_apply dot_S1x32_S32x4096_S1x4096_1_0_0_1_n_n_wf none v11
    (act (F := Ideal) v1 v3 v6 v8 d) (0 : Fin 1) y).trans ?_
  refine Finset.sum_congr rfl fun h _ => ?_
  exact congrArg (v11 (ix2 (0 : Fin 1) h) * ·) (act_apply v1 v3 v6 v8 d h y)

end Cert.KernelIdeal.Row

end
-- ==== Proof.Blocks.lean ====
/-
  From the blocks the kernel writes back to the whole edge-bias array.

  The kernel's grid has eight points; point `t` is handed the columns `4096·t … 4096·t + 4095` of the three
  edge-indexed inputs (all eight batch elements' coordinate differences, the rest lengths, the structural rows)
  and the four weight arrays whole, and writes back the same columns of the output, all eight rows. Row `b`,
  column `y` of what it writes is the specification's entry of column `4096·t + y` for batch element `b`:
  the body's block is its eight rows joined, each row the row function read at `y`. The eight column ranges
  tile the array, so the array ends holding, at every `(b, e)`, the specification's entry of edge `e` for batch
  element `b`, read off the arrays as the region finds them.
-/
import proofs.«112120_j12816182411320_2_alg».proof.Proof.Gen.KernelIdeal.Frame
import proofs.«112120_j12816182411320_2_alg».proof.Proof.Entry
import Idealize.ShloMosaic.Lib.Pipeline.Value

set_option maxRecDepth 16384

noncomputable section

open scoped BigOperators

namespace Cert.KernelIdeal.Blocks

open Cert.KernelIdeal Cert.KernelIdeal.Gen Cert.KernelIdeal.Row Idealize.ShloMosaic Idealize.ShloMosaic.ValueIdx Cert.EdgeBias
open Idealize.ShloMosaic.Pipeline (Dat)

/-! ### The body's block at a row and a column -/

theorem hz2 : (![0, 0] : Fin 2 → Nat) = fun _ => 0 := funext fun a => by fin_cases a <;> rfl

/-- The body's first steps only re-type its whole-block loads (a cast to the same shape, a change of float format):
    at the ideal values each is the load itself, entry by entry. -/
theorem pay2_apply (x : Vec Ideal S1x4096 .f32) (i : S1x4096.Idx) : k0_pay2 (F := Ideal) x i = x i :=
  congrFun (shapeCast_self x shapeCasts_S1x4096_S1x4096) i
theorem pay3_apply (x : Vec Ideal S8x4096 .f32) (i : S8x4096.Idx) : k0_pay3 (F := Ideal) x i = x i :=
  congrFun (shapeCast_self x shapeCasts_S8x4096_S8x4096) i
theorem pay4_apply (x : Vec Ideal S32x10 .f32) (i : S32x10.Idx) : k0_pay4 (F := Ideal) x i = x i :=
  congrFun (shapeCast_self x shapeCasts_S32x10_S32x10) i
theorem pay5_apply (x : Vec Ideal S32x1 .f32) (i : S32x1.Idx) : k0_pay5 (F := Ideal) x i = x i :=
  congrFun (shapeCast_self x shapeCasts_S32x1_S32x1) i
theorem pay6_apply (x : Vec Ideal S1x32 .f32) (i : S1x32.Idx) : k0_pay6 (F := Ideal) x i = x i :=
  congrFun (shapeCast_self x shapeCasts_S1x32_S1x32) i
theorem pay7_apply (x : Vec Ideal S1x1 .f32) (i : S1x1.Idx) : k0_pay7 (F := Ideal) x i = x i :=
  congrFun (shapeCast_self x shapeCasts_S1x1_S1x1) i

/-! Batch element `b`'s three coordinate rows are loaded through the rectangle at offset `b` on the batch axis. -/
theorem ld_row0 (x0 : Vec Ideal S8x3x4096 .f32) (k : Fin 3) (y : Fin 4096) :
    View.ld x0 r0_6 (ix3 (0 : Fin 1) k y) = x0 (ix3 (⟨0, by omega⟩ : Fin 8) k y) :=
  congrArg x0 (funext fun a => Fin.ext (by
    match a with
    | ⟨0, _⟩ => rfl
    | ⟨1, _⟩ => show 0 + 1 * k.val = k.val; omega
    | ⟨2, _⟩ => show 0 + 1 * y.val = y.val; omega))
theorem ld_row1 (x0 : Vec Ideal S8x3x4096 .f32) (k : Fin 3) (y : Fin 4096) :
    View.ld x0 r0_7 (ix3 (0 : Fin 1) k y) = x0 (ix3 (⟨1, by omega⟩ : Fin 8) k y) :=
  congrArg x0 (funext fun a => Fin.ext (by
    match a with
    | ⟨0, _⟩ => rfl
    | ⟨1, _⟩ => show 0 + 1 * k.val = k.val; omega
    | ⟨2, _⟩ => show 0 + 1 * y.val = y.val; omega))
theorem ld_row2 (x0 : Vec Ideal S8x3x4096 .f32) (k : Fin 3) (y : Fin 4096) :
    View.ld x0 r0_8 (ix3 (0 : Fin 1) k y) = x0 (ix3 (⟨2, by omega⟩ : Fin 8) k y) :=
  congrArg x0 (funext fun a => Fin.ext (by
    match a with
    | ⟨0, _⟩ => rfl
    | ⟨1, _⟩ => show 0 + 1 * k.val = k.val; omega
    | ⟨2, _⟩ => show 0 + 1 * y.val = y.val; omega))
theorem ld_row3 (x0 : Vec Ideal S8x3x4096 .f32) (k : Fin 3) (y : Fin 4096) :
    View.ld x0 r0_9 (ix3 (0 : Fin 1) k y) = x0 (ix3 (⟨3, by omega⟩ : Fin 8) k y) :=
  congrArg x0 (funext fun a => Fin.ext (by
    match a with
    | ⟨0, _⟩ => rfl
    | ⟨1, _⟩ => show 0 + 1 * k.val = k.val; omega
    | ⟨2, _⟩ => show 0 + 1 * y.val = y.val; omega))
theorem ld_row4 (x0 : Vec Ideal S8x3x4096 .f32) (k : Fin 3) (y : Fin 4096) :
    View.ld x0 r0_10 (ix3 (0 : Fin 1) k y) = x0 (ix3 (⟨4, by omega⟩ : Fin 8) k y) :=
  congrArg x0 (funext fun a => Fin.ext (by
    match a with
    | ⟨0, _⟩ => rfl
    | ⟨1, _⟩ => show 0 + 1 * k.val = k.val; omega
    | ⟨2, _⟩ => show 0 + 1 * y.val = y.val; omega))
theorem ld_row5 (x0 : Vec Ideal S8x3x4096 .f32) (k : Fin 3) (y : Fin 4096) :
    View.ld x0 r0_11 (ix3 (0 : Fin 1) k y) = x0 (ix3 (⟨5, by omega⟩ : Fin 8) k y) :=
  congrArg x0 (funext fun a => Fin.ext (by
    match a with
    | ⟨0, _⟩ => rfl
    | ⟨1, _⟩ => show 0 + 1 * k.val = k.val; omega
    | ⟨2, _⟩ => show 0 + 1 * y.val = y.val; omega))
theorem ld_row6 (x0 : Vec Ideal S8x3x4096 .f32) (k : Fin 3) (y : Fin 4096) :
    View.ld x0 r0_12 (ix3 (0 : Fin 1) k y) = x0 (ix3 (⟨6, by omega⟩ : Fin 8) k y) :=
  congrArg x0 (funext fun a => Fin.ext (by
    match a with
    | ⟨0, _⟩ => rfl
    | ⟨1, _⟩ => show 0 + 1 * k.val = k.val; omega
    | ⟨2, _⟩ => show 0 + 1 * y.val = y.val; omega))
theorem ld_row7 (x0 : Vec Ideal S8x3x4096 .f32) (k : Fin 3) (y : Fin 4096) :
    View.ld x0 r0_13 (ix3 (0 : Fin 1) k y) = x0 (ix3 (⟨7, by omega⟩ : Fin 8) k y) :=
  congrArg x0 (funext fun a => Fin.ext (by
    match a with
    | ⟨0, _⟩ => rfl
    | ⟨1, _⟩ => show 0 + 1 * k.val = k.val; omega
    | ⟨2, _⟩ => show 0 + 1 * y.val = y.val; omega))

/-- Eight rows joined along the leading axis, read at row `b` and column `y`: row `b` at column `y`. -/
theorem rows8_apply (R0 R1 R2 R3 R4 R5 R6 R7 : FVec Ideal S1x4096 .f32) (b : Fin 8) (y : Fin 4096) :
    concatenate S8x4096 0 [⟨S1x4096, R0⟩, ⟨S1x4096, R1⟩, ⟨S1x4096, R2⟩, ⟨S1x4096, R3⟩, ⟨S1x4096, R4⟩, ⟨S1x4096, R5⟩, ⟨S1x4096, R6⟩, ⟨S1x4096, R7⟩] concatenates_S1x4096_S1x4096_S1x4096_S1x4096_S1x4096_S1x4096_S1x4096_S1x4096_S8x4096_d0 (ix2 b y)
      = (![R0, R1, R2, R3, R4, R5, R6, R7] b) (ix2 (0 : Fin 1) y) := by
  match b with
  | ⟨0, _⟩ =>
    exact concatenate_apply_piece (t := S8x4096) (0 : Fin 2) [⟨S1x4096, R0⟩, ⟨S1x4096, R1⟩, ⟨S1x4096, R2⟩, ⟨S1x4096, R3⟩, ⟨S1x4096, R4⟩, ⟨S1x4096, R5⟩, ⟨S1x4096, R6⟩, ⟨S1x4096, R7⟩] concatenates_S1x4096_S1x4096_S1x4096_S1x4096_S1x4096_S1x4096_S1x4096_S1x4096_S8x4096_d0
      (ix2 (⟨0, by omega⟩ : Fin 8) y) 0 (by simp) S1x4096 R0 rfl rfl 0 rfl (ix2 (0 : Fin 1) y)
      (fun a ha => by match a with | ⟨0, _⟩ => exact absurd rfl ha | ⟨1, _⟩ => rfl) rfl
  | ⟨1, _⟩ =>
    exact concatenate_apply_piece (t := S8x4096) (0 : Fin 2) [⟨S1x4096, R0⟩, ⟨S1x4096, R1⟩, ⟨S1x4096, R2⟩, ⟨S1x4096, R3⟩, ⟨S1x4096, R4⟩, ⟨S1x4096, R5⟩, ⟨S1x4096, R6⟩, ⟨S1x4096, R7⟩] concatenates_S1x4096_S1x4096_S1x4096_S1x4096_S1x4096_S1x4096_S1x4096_S1x4096_S8x4096_d0
      (ix2 (⟨1, by omega⟩ : Fin 8) y) 1 (by simp) S1x4096 R1 rfl rfl 1 rfl (ix2 (0 : Fin 1) y)
      (fun a ha => by match a with | ⟨0, _⟩ => exact absurd rfl ha | ⟨1, _⟩ => rfl) rfl
  | ⟨2, _⟩ =>
    exact concatenate_apply_piece (t := S8x4096) (0 : Fin 2) [⟨S1x4096, R0⟩, ⟨S1x4096, R1⟩, ⟨S1x4096, R2⟩, ⟨S1x4096, R3⟩, ⟨S1x4096, R4⟩, ⟨S1x4096, R5⟩, ⟨S1x4096, R6⟩, ⟨S1x4096, R7⟩] concatenates_S1x4096_S1x4096_S1x4096_S1x4096_S1x4096_S1x4096_S1x4096_S1x4096_S8x4096_d0
      (ix2 (⟨2, by omega⟩ : Fin 8) y) 2 (by simp) S1x4096 R2 rfl rfl 2 rfl (ix2 (0 : Fin 1) y)
      (fun a ha => by match a with | ⟨0, _⟩ => exact absurd rfl ha | ⟨1, _⟩ => rfl) rfl
  | ⟨3, _⟩ =>
    exact concatenate_apply_piece (t := S8x4096) (0 : Fin 2) [⟨S1x4096, R0⟩, ⟨S1x4096, R1⟩, ⟨S1x4096, R2⟩, ⟨S1x4096, R3⟩, ⟨S1x4096, R4⟩, ⟨S1x4096, R5⟩, ⟨S1x4096, R6⟩, ⟨S1x4096, R7⟩] concatenates_S1x4096_S1x4096_S1x4096_S1x4096_S1x4096_S1x4096_S1x4096_S1x4096_S8x4096_d0
      (ix2 (⟨3, by omega⟩ : Fin 8) y) 3 (by simp) S1x4096 R3 rfl rfl 3 rfl (ix2 (0 : Fin 1) y)
      (fun a ha => by match a with | ⟨0, _⟩ => exact absurd rfl ha | ⟨1, _⟩ => rfl) rfl
  | ⟨4, _⟩ =>
    exact concatenate_apply_piece (t := S8x4096) (0 : Fin 2) [⟨S1x4096, R0⟩, ⟨S1x4096, R1⟩, ⟨S1x4096, R2⟩, ⟨S1x4096, R3⟩, ⟨S1x4096, R4⟩, ⟨S1x4096, R5⟩, ⟨S1x4096, R6⟩, ⟨S1x4096, R7⟩] concatenates_S1x4096_S1x4096_S1x4096_S1x4096_S1x4096_S1x4096_S1x4096_S1x4096_S8x4096_d0
      (ix2 (⟨4, by omega⟩ : Fin 8) y) 4 (by simp) S1x4096 R4 rfl rfl 4 rfl (ix2 (0 : Fin 1) y)
      (fun a ha => by match a with | ⟨0, _⟩ => exact absurd rfl ha | ⟨1, _⟩ => rfl) rfl
  | ⟨5, _⟩ =>
    exact concatenate_apply_piece (t := S8x4096) (0 : Fin 2) [⟨S1x4096, R0⟩, ⟨S1x4096, R1⟩, ⟨S1x4096, R2⟩, ⟨S1x4096, R3⟩, ⟨S1x4096, R4⟩, ⟨S1x4096, R5⟩, ⟨S1x4096, R6⟩, ⟨S1x4096, R7⟩] concatenates_S1x4096_S1x4096_S1x4096_S1x4096_S1x4096_S1x4096_S1x4096_S1x4096_S8x4096_d0
      (ix2 (⟨5, by omega⟩ : Fin 8) y) 5 (by simp) S1x4096 R5 rfl rfl 5 rfl (ix2 (0 : Fin 1) y)
      (fun a ha => by match a with | ⟨0, _⟩ => exact absurd rfl ha | ⟨1, _⟩ => rfl) rfl
  | ⟨6, _⟩ =>
    exact concatenate_apply_piece (t := S8x4096) (0 : Fin 2) [⟨S1x4096, R0⟩, ⟨S1x4096, R1⟩, ⟨S1x4096, R2⟩, ⟨S1x4096, R3⟩, ⟨S1x4096, R4⟩, ⟨S1x4096, R5⟩, ⟨S1x4096, R6⟩, ⟨S1x4096, R7⟩] concatenates_S1x4096_S1x4096_S1x4096_S1x4096_S1x4096_S1x4096_S1x4096_S1x4096_S8x4096_d0
      (ix2 (⟨6, by omega⟩ : Fin 8) y) 6 (by simp) S1x4096 R6 rfl rfl 6 rfl (ix2 (0 : Fin 1) y)
      (fun a ha => by match a with | ⟨0, _⟩ => exact absurd rfl ha | ⟨1, _⟩ => rfl) rfl
  | ⟨7, _⟩ =>
    exact concatenate_apply_piece (t := S8x4096) (0 : Fin 2) [⟨S1x4096, R0⟩, ⟨S1x4096, R1⟩, ⟨S1x4096, R2⟩, ⟨S1x4096, R3⟩, ⟨S1x4096, R4⟩, ⟨S1x4096, R5⟩, ⟨S1x4096, R6⟩, ⟨S1x4096, R7⟩] concatenates_S1x4096_S1x4096_S1x4096_S1x4096_S1x4096_S1x4096_S1x4096_S1x4096_S8x4096_d0
      (ix2 (⟨7, by omega⟩ : Fin 8) y) 7 (by simp) S1x4096 R7 rfl rfl 7 rfl (ix2 (0 : Fin 1) y)
      (fun a ha => by match a with | ⟨0, _⟩ => exact absurd rfl ha | ⟨1, _⟩ => rfl) rfl

/-- The specification's entry depends on the coordinate differences only through their three values. -/
theorem edgeVal_congr_d {d d' : Fin 3 → EReal} (h : ∀ k, d k = d' k) (rest : EReal) (st : Fin 8 → EReal)
    (w1 : Fin 10 → Fin 32 → EReal) (b1 : Fin 32 → EReal) (w2 : Fin 32 → EReal) (b2 : EReal) :
    edgeVal d rest st w1 b1 w2 b2 = edgeVal d' rest st w1 b1 w2 b2 := by
  rw [funext h]

/-- What the body leaves in the output block, at row `b` and column `y`, from the input blocks. -/
theorem out_block (x0 : Vec Ideal S8x3x4096 .f32) (x1 : Vec Ideal S1x4096 .f32) (x2 : Vec Ideal S8x4096 .f32)
    (x3 : Vec Ideal S32x10 .f32) (x4 : Vec Ideal S32x1 .f32) (x5 : Vec Ideal S1x32 .f32) (x6 : Vec Ideal S1x1 .f32)
    (b : Fin 8) (y : Fin 4096) :
    out0_7 (F := Ideal) x0 x1 x2 x3 x4 x5 x6 (ix2 b y)
      = edgeVal (fun k : Fin 3 => x0 (ix3 b k y)) (x1 (ix2 (0 : Fin 1) y)) (fun j : Fin 8 => x2 (ix2 j y))
          (fun (f : Fin 10) (h : Fin 32) => x3 (ix2 h f)) (fun h : Fin 32 => x4 (ix2 h (0 : Fin 1)))
          (fun h : Fin 32 => x5 (ix2 (0 : Fin 1) h)) (x6 (ix2 (0 : Fin 1) (0 : Fin 1))) := by
  unfold out0_7
  rw [View.canon_unit_zero hz2]
  simp only [View.ld_unit_zero (S := S1x4096) hz2, View.ld_unit_zero (S := S8x4096) hz2, View.ld_unit_zero (S := S32x10) hz2,
    View.ld_unit_zero (S := S32x1) hz2, View.ld_unit_zero (S := S1x32) hz2, View.ld_unit_zero (S := S1x1) hz2]
  rw [pay8_eq, pay9_eq, pay10_eq, pay11_eq, pay13_eq, pay14_eq, pay15_eq, pay1_eq]
  refine (rows8_apply _ _ _ _ _ _ _ _ b y).trans ?_
  match b with
  | ⟨0, _⟩ =>
    show edgeRow (F := Ideal) _ _ _ _ _ _ _ (ix2 (0 : Fin 1) y) = _
    refine (edgeRow_apply _ _ _ _ _ _ _ y).trans ?_
    simp only [pay2_apply, pay3_apply, pay4_apply, pay5_apply, pay6_apply, pay7_apply]
    exact edgeVal_congr_d (fun k => ld_row0 x0 k y) _ _ _ _ _ _
  | ⟨1, _⟩ =>
    show edgeRow (F := Ideal) _ _ _ _ _ _ _ (ix2 (0 : Fin 1) y) = _
    refine (edgeRow_apply _ _ _ _ _ _ _ y).trans ?_
    simp only [pay2_apply, pay3_apply, pay4_apply, pay5_apply, pay6_apply, pay7_apply]
    exact edgeVal_congr_d (fun k => ld_row1 x0 k y) _ _ _ _ _ _
  | ⟨2, _⟩ =>
    show edgeRow (F := Ideal) _ _ _ _ _ _ _ (ix2 (0 : Fin 1) y) = _
    refine (edgeRow_apply _ _ _ _ _ _ _ y).trans ?_
    simp only [pay2_apply, pay3_apply, pay4_apply, pay5_apply, pay6_apply, pay7_apply]
    exact edgeVal_congr_d (fun k => ld_row2 x0 k y) _ _ _ _ _ _
  | ⟨3, _⟩ =>
    show edgeRow (F := Ideal) _ _ _ _ _ _ _ (ix2 (0 : Fin 1) y) = _
    refine (edgeRow_apply _ _ _ _ _ _ _ y).trans ?_
    simp only [pay2_apply, pay3_apply, pay4_apply, pay5_apply, pay6_apply, pay7_apply]
    exact edgeVal_congr_d (fun k => ld_row3 x0 k y) _ _ _ _ _ _
  | ⟨4, _⟩ =>
    show edgeRow (F := Ideal) _ _ _ _ _ _ _ (ix2 (0 : Fin 1) y) = _
    refine (edgeRow_apply _ _ _ _ _ _ _ y).trans ?_
    simp only [pay2_apply, pay3_apply, pay4_apply, pay5_apply, pay6_apply, pay7_apply]
    exact edgeVal_congr_d (fun k => ld_row4 x0 k y) _ _ _ _ _ _
  | ⟨5, _⟩ =>
    show edgeRow (F := Ideal) _ _ _ _ _ _ _ (ix2 (0 : Fin 1) y) = _
    refine (edgeRow_apply _ _ _ _ _ _ _ y).trans ?_
    simp only [pay2_apply, pay3_apply, pay4_apply, pay5_apply, pay6_apply, pay7_apply]
    exact edgeVal_congr_d (fun k => ld_row5 x0 k y) _ _ _ _ _ _
  | ⟨6, _⟩ =>
    show edgeRow (F := Ideal) _ _ _ _ _ _ _ (ix2 (0 : Fin 1) y) = _
    refine (edgeRow_apply _ _ _ _ _ _ _ y).trans ?_
    simp only [pay2_apply, pay3_apply, pay4_apply, pay5_apply, pay6_apply, pay7_apply]
    exact edgeVal_congr_d (fun k => ld_row6 x0 k y) _ _ _ _ _ _
  | ⟨7, _⟩ =>
    show edgeRow (F := Ideal) _ _ _ _ _ _ _ (ix2 (0 : Fin 1) y) = _
    refine (edgeRow_apply _ _ _ _ _ _ _ y).trans ?_
    simp only [pay2_apply, pay3_apply, pay4_apply, pay5_apply, pay6_apply, pay7_apply]
    exact edgeVal_congr_d (fun k => ld_row7 x0 k y) _ _ _ _ _ _

end Cert.KernelIdeal.Blocks

end
-- ==== Proof.OutArray.lean ====
/-
  The whole edge-bias array after the kernel's run.

  Point `t` of the grid is handed block `t` of the edge-indexed arrays — columns `4096·t + y`, `y < 4096`, every
  row — and the weight arrays whole; so a block entry `(row, y)` of an input is the array's entry
  `(row, 4096·t + y)`, and of a weight array the same entry of the array. With the body's block from the
  previous module, what point `t` writes back is block `t` of ONE function of the arrays: at `(b, e)` the
  specification's entry of edge `e` for batch element `b`. The eight blocks tile the array (edge `e` is in
  block `e / 4096`), so the array ends holding that function.
-/
import proofs.«112120_j12816182411320_2_alg».proof.Proof.Blocks

set_option maxRecDepth 16384

noncomputable section

open scoped BigOperators

namespace Cert.KernelIdeal.Blocks

open Cert.KernelIdeal Cert.KernelIdeal.Gen Cert.KernelIdeal.Row Idealize.ShloMosaic Idealize.ShloMosaic.TcCoe Idealize.ShloMosaic.ValueIdx Cert.EdgeBias
open Idealize.ShloMosaic.Pipeline (Dat)

/-- The specification's entry depends on its operands only through their values. -/
theorem edgeVal_congr {d d' : Fin 3 → EReal} {rest rest' : EReal} {st st' : Fin 8 → EReal} {w1 w1' : Fin 10 → Fin 32 → EReal}
    {b1 b1' : Fin 32 → EReal} {w2 w2' : Fin 32 → EReal} {b2 b2' : EReal}
    (hd : ∀ k, d k = d' k) (hr : rest = rest') (hst : ∀ j, st j = st' j) (hw1 : ∀ f h, w1 f h = w1' f h)
    (hb1 : ∀ h, b1 h = b1' h) (hw2 : ∀ h, w2 h = w2' h) (hb2 : b2 = b2') :
    edgeVal d rest st w1 b1 w2 b2 = edgeVal d' rest' st' w1' b1' w2' b2' := by
  obtain rfl : d = d' := funext hd
  obtain rfl : st = st' := funext hst
  obtain rfl : w1 = w1' := funext fun f => funext fun h => hw1 f h
  obtain rfl : b1 = b1' := funext hb1
  obtain rfl : w2 = w2' := funext hw2
  rw [hr, hb2]

/-- Entry `(b, e)` of the output array from the arrays the region finds: the specification's entry of edge `e` for
    batch element `b`, the operands read in the layouts the kernel is handed. -/
def outEntry (A0 : S8x3x32768.Idx → EReal) (A1 : S1x32768.Idx → EReal) (A2 : S8x32768.Idx → EReal) (A3 : S32x10.Idx → EReal)
    (A4 : S32x1.Idx → EReal) (A5 : S1x32.Idx → EReal) (A6 : S1x1.Idx → EReal) (b : Fin 8) (e : Fin 32768) : EReal :=
  edgeVal (fun k : Fin 3 => A0 (ix3 b k e)) (A1 (ix2 (0 : Fin 1) e)) (fun j : Fin 8 => A2 (ix2 j e))
    (fun (f : Fin 10) (h : Fin 32) => A3 (ix2 h f)) (fun h : Fin 32 => A4 (ix2 h (0 : Fin 1)))
    (fun h : Fin 32 => A5 (ix2 (0 : Fin 1) h)) (A6 (ix2 (0 : Fin 1) (0 : Fin 1)))

/-- The output array as one function of its index. -/
def outArr (A0 : S8x3x32768.Idx → EReal) (A1 : S1x32768.Idx → EReal) (A2 : S8x32768.Idx → EReal) (A3 : S32x10.Idx → EReal)
    (A4 : S32x1.Idx → EReal) (A5 : S1x32.Idx → EReal) (A6 : S1x1.Idx → EReal) : S8x32768.Idx → EReal :=
  fun i => outEntry A0 A1 A2 A3 A4 A5 A6 (⟨(i 0).val, (i 0).isLt⟩ : Fin 8) (⟨(i 1).val, (i 1).isLt⟩ : Fin 32768)

/-- The body's block at an index of the block, its two coordinates named. -/
theorem out_block_idx (x0 : Vec Ideal S8x3x4096 .f32) (x1 : Vec Ideal S1x4096 .f32) (x2 : Vec Ideal S8x4096 .f32)
    (x3 : Vec Ideal S32x10 .f32) (x4 : Vec Ideal S32x1 .f32) (x5 : Vec Ideal S1x32 .f32) (x6 : Vec Ideal S1x1 .f32)
    (j : S8x4096.Idx) (b : Fin 8) (y : Fin 4096) (hb : (j 0).val = b.val) (hy : (j 1).val = y.val) :
    out0_7 (F := Ideal) x0 x1 x2 x3 x4 x5 x6 j
      = edgeVal (fun k : Fin 3 => x0 (ix3 b k y)) (x1 (ix2 (0 : Fin 1) y)) (fun j : Fin 8 => x2 (ix2 j y))
          (fun (f : Fin 10) (h : Fin 32) => x3 (ix2 h f)) (fun h : Fin 32 => x4 (ix2 h (0 : Fin 1)))
          (fun h : Fin 32 => x5 (ix2 (0 : Fin 1) h)) (x6 (ix2 (0 : Fin 1) (0 : Fin 1))) := by
  have hj : j = ix2 b y := funext fun a => Fin.ext (by
    match a with
    | ⟨0, _⟩ => exact hb
    | ⟨1, _⟩ => exact hy)
  rw [hj]
  exact out_block x0 x1 x2 x3 x4 x5 x6 b y

variable (m : (ℓ : Loc nD τ sig) → Buf (Elt Ideal) ℓ) (c : Dev nD)

/-- The printed index maps, decided over the grid: the edge-indexed windows move with the output's block along
    the edge axis and stay at zero on the others; the weight windows stay at zero; the output's block index on the edge
    axis is at most seven. -/
theorem idx_facts : ∀ t : Fin cfg0.N,
    win0_0.index t (0 : Fin 3) = 0 ∧ win0_0.index t (1 : Fin 3) = 0 ∧ win0_0.index t (2 : Fin 3) = win0_7.index t (1 : Fin 2)
    ∧ win0_1.index t (0 : Fin 2) = 0 ∧ win0_1.index t (1 : Fin 2) = win0_7.index t (1 : Fin 2)
    ∧ win0_2.index t (0 : Fin 2) = 0 ∧ win0_2.index t (1 : Fin 2) = win0_7.index t (1 : Fin 2)
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) ≤ 7 :=
  (by decide +kernel : ∀ t : Fin grid0.N, _)

/-- Every block of the edge axis is some point's. -/
theorem idx_onto : ∀ q : Fin 8, ∃ t : Fin cfg0.N, win0_7.index t = ![0, q.val] :=
  (by decide +kernel : ∀ q : Fin 8, ∃ t : Fin grid0.N, win0_7.index t = ![0, q.val])

/-- The edge that column `y` of point `t`'s block is. -/
def col (t : Fin cfg0.N) (y : Fin 4096) : Fin 32768 :=
  ⟨win0_7.index t (1 : Fin 2) * 4096 + y.val, by have := (idx_facts t).2.2.2.2.2.2.2.2.2.2.2.2.2.2.2.2; have := y.isLt; omega⟩

/-! ### The input blocks are the arrays read at the block's columns -/

theorem blk0 (t : Fin cfg0.N) (b : Fin 8) (k : Fin 3) (y : Fin 4096) :
    iblk m c 0 t (ix3 b k y) = V m c main_v19 (ix3 b k (col t y)) := by
  obtain ⟨e0, e1, e2, -⟩ := idx_facts t
  show V m c main_v19 (((cfg0.win 0).blk t).view.emb (ix3 b k y)) = V m c main_v19 (ix3 b k (col t y))
  refine congrArg _ (funext fun a => Fin.ext ?_)
  match a with
  | ⟨0, _⟩ => show win0_0.index t (0 : Fin 3) * 8 + 1 * b.val = b.val; rw [e0]; omega
  | ⟨1, _⟩ => show win0_0.index t (1 : Fin 3) * 3 + 1 * k.val = k.val; rw [e1]; omega
  | ⟨2, _⟩ => show win0_0.index t (2 : Fin 3) * 4096 + 1 * y.val = win0_7.index t (1 : Fin 2) * 4096 + y.val; rw [e2]; omega

theorem blk1 (t : Fin cfg0.N) (y : Fin 4096) :
    iblk m c 1 t (ix2 (0 : Fin 1) y) = V m c main_v28 (ix2 (0 : Fin 1) (col t y)) := by
  obtain ⟨-, -, -, e3, e4, -⟩ := idx_facts t
  show V m c main_v28 (((cfg0.win 1).blk t).view.emb (ix2 (0 : Fin 1) y)) = V m c main_v28 (ix2 (0 : Fin 1) (col t y))
  refine congrArg _ (funext fun a => Fin.ext ?_)
  match a with
  | ⟨0, _⟩ => show win0_1.index t (0 : Fin 2) * 1 + 1 * 0 = 0; rw [e3]
  | ⟨1, _⟩ => show win0_1.index t (1 : Fin 2) * 4096 + 1 * y.val = win0_7.index t (1 : Fin 2) * 4096 + y.val; rw [e4]; omega

theorem blk2 (t : Fin cfg0.N) (j : Fin 8) (y : Fin 4096) :
    iblk m c 2 t (ix2 j y) = V m c main_v27 (ix2 j (col t y)) := by
  obtain ⟨-, -, -, -, -, e5, e6, -⟩ := idx_facts t
  show V m c main_v27 (((cfg0.win 2).blk t).view.emb (ix2 j y)) = V m c main_v27 (ix2 j (col t y))
  refine congrArg _ (funext fun a => Fin.ext ?_)
  match a with
  | ⟨0, _⟩ => show win0_2.index t (0 : Fin 2) * 8 + 1 * j.val = j.val; rw [e5]; omega
  | ⟨1, _⟩ => show win0_2.index t (1 : Fin 2) * 4096 + 1 * y.val = win0_7.index t (1 : Fin 2) * 4096 + y.val; rw [e6]; omega

theorem blk3 (t : Fin cfg0.N) (h : Fin 32) (f : Fin 10) :
    iblk m c 3 t (ix2 h f) = V m c main_v29 (ix2 h f) := by
  obtain ⟨-, -, -, -, -, -, -, e7, e8, -⟩ := idx_facts t
  show V m c main_v29 (((cfg0.win 3).blk t).view.emb (ix2 h f)) = V m c main_v29 (ix2 h f)
  refine congrArg _ (funext fun a => Fin.ext ?_)
  match a with
  | ⟨0, _⟩ => show win0_3.index t (0 : Fin 2) * 32 + 1 * h.val = h.val; rw [e7]; omega
  | ⟨1, _⟩ => show win0_3.index t (1 : Fin 2) * 10 + 1 * f.val = f.val; rw [e8]; omega

theorem blk4 (t : Fin cfg0.N) (h : Fin 32) :
    iblk m c 4 t (ix2 h (0 : Fin 1)) = V m c main_v30 (ix2 h (0 : Fin 1)) := by
  obtain ⟨-, -, -, -, -, -, -, -, -, e9, e10, -⟩ := idx_facts t
  show V m c main_v30 (((cfg0.win 4).blk t).view.emb (ix2 h (0 : Fin 1))) = V m c main_v30 (ix2 h (0 : Fin 1))
  refine congrArg _ (funext fun a => Fin.ext ?_)
  match a with
  | ⟨0, _⟩ => show win0_4.index t (0 : Fin 2) * 32 + 1 * h.val = h.val; rw [e9]; omega
  | ⟨1, _⟩ => show win0_4.index t (1 : Fin 2) * 1 + 1 * 0 = 0; rw [e10]

theorem blk5 (t : Fin cfg0.N) (h : Fin 32) :
    iblk m c 5 t (ix2 (0 : Fin 1) h) = V m c main_v31 (ix2 (0 : Fin 1) h) := by
  obtain ⟨-, -, -, -, -, -, -, -, -, -, -, e11, e12, -⟩ := idx_facts t
  show V m c main_v31 (((cfg0.win 5).blk t).view.emb (ix2 (0 : Fin 1) h)) = V m c main_v31 (ix2 (0 : Fin 1) h)
  refine congrArg _ (funext fun a => Fin.ext ?_)
  match a with
  | ⟨0, _⟩ => show win0_5.index t (0 : Fin 2) * 1 + 1 * 0 = 0; rw [e11]
  | ⟨1, _⟩ => show win0_5.index t (1 : Fin 2) * 32 + 1 * h.val = h.val; rw [e12]; omega

theorem blk6 (t : Fin cfg0.N) :
    iblk m c 6 t (ix2 (0 : Fin 1) (0 : Fin 1)) = V m c main_v32 (ix2 (0 : Fin 1) (0 : Fin 1)) := by
  obtain ⟨-, -, -, -, -, -, -, -, -, -, -, -, -, e13, e14, -⟩ := idx_facts t
  show V m c main_v32 (((cfg0.win 6).blk t).view.emb (ix2 (0 : Fin 1) (0 : Fin 1))) = V m c main_v32 (ix2 (0 : Fin 1) (0 : Fin 1))
  refine congrArg _ (funext fun a => Fin.ext ?_)
  match a with
  | ⟨0, _⟩ => show win0_6.index t (0 : Fin 2) * 1 + 1 * 0 = 0; rw [e13]
  | ⟨1, _⟩ => show win0_6.index t (1 : Fin 2) * 1 + 1 * 0 = 0; rw [e14]

/-- WHAT POINT `t` WRITES BACK is block `t` of the one function of the arrays as the region finds them. -/
theorem flushed_eq (t : Fin cfg0.N) :
    (dats m 0 c).flushed 7 t = ((cfg0.win 7).blk t).view.read (Elt Ideal)
      (outArr (V m c main_v19) (V m c main_v28) (V m c main_v27) (V m c main_v29) (V m c main_v30) (V m c main_v31) (V m c main_v32)) := by
  show (cfg0.win 7).cut (grid0.coords t) ((dats m 0 c).after 7 t) = _
  rw [after0_7]
  funext j
  obtain ⟨-, -, -, -, -, -, -, -, -, -, -, -, -, -, -, e15, e16⟩ := idx_facts t
  have hb : (j 0).val < 8 := (j 0).isLt
  have hy : (j 1).val < 4096 := (j 1).isLt
  show out0_7 (F := Ideal) (iblk m c 0 t) (iblk m c 1 t) (iblk m c 2 t) (iblk m c 3 t) (iblk m c 4 t) (iblk m c 5 t) (iblk m c 6 t) j
    = outArr (V m c main_v19) (V m c main_v28) (V m c main_v27) (V m c main_v29) (V m c main_v30) (V m c main_v31) (V m c main_v32)
        (((cfg0.win 7).blk t).view.emb j)
  refine (out_block_idx (iblk m c 0 t) (iblk m c 1 t) (iblk m c 2 t) (iblk m c 3 t) (iblk m c 4 t) (iblk m c 5 t) (iblk m c 6 t) j
    ⟨(j 0).val, hb⟩ ⟨(j 1).val, hy⟩ rfl rfl).trans ?_
  refine (edgeVal_congr (fun k => blk0 m c t ⟨(j 0).val, hb⟩ k ⟨(j 1).val, hy⟩) (blk1 m c t ⟨(j 1).val, hy⟩)
    (fun i => blk2 m c t i ⟨(j 1).val, hy⟩) (fun f h => blk3 m c t h f) (fun h => blk4 m c t h) (fun h => blk5 m c t h)
    (blk6 m c t)).trans ?_
  have hB : (⟨(((cfg0.win 7).blk t).view.emb j 0).val, (((cfg0.win 7).blk t).view.emb j 0).isLt⟩ : Fin 8) = ⟨(j 0).val, hb⟩ :=
    Fin.ext (by show win0_7.index t (0 : Fin 2) * 8 + 1 * (j 0).val = (j 0).val; rw [e15]; omega)
  have hE : (⟨(((cfg0.win 7).blk t).view.emb j 1).val, (((cfg0.win 7).blk t).view.emb j 1).isLt⟩ : Fin 32768) = col t ⟨(j 1).val, hy⟩ :=
    Fin.ext (by show win0_7.index t (1 : Fin 2) * 4096 + 1 * (j 1).val = win0_7.index t (1 : Fin 2) * 4096 + (j 1).val; omega)
  show _ = outEntry (V m c main_v19) (V m c main_v28) (V m c main_v27) (V m c main_v29) (V m c main_v30) (V m c main_v31) (V m c main_v32)
    (⟨(((cfg0.win 7).blk t).view.emb j 0).val, (((cfg0.win 7).blk t).view.emb j 0).isLt⟩ : Fin 8)
    (⟨(((cfg0.win 7).blk t).view.emb j 1).val, (((cfg0.win 7).blk t).view.emb j 1).isLt⟩ : Fin 32768)
  rw [hB, hE]
  rfl

/-- An index of the array is in point `t`'s block iff each coordinate is in the block's range on its axis. -/
theorem mem_blk (t : Fin cfg0.N) (i : S8x32768.Idx) :
    i ∈ ((cfg0.win 7).blk t).view.set ↔ ∀ a : Fin 2, win0_7.index t a * S8x4096.size a ≤ (i a).val
      ∧ (i a).val < win0_7.index t a * S8x4096.size a + S8x4096.size a := by
  show i ∈ ((View.whole main_v33).slice (win0_7.rect t)).set ↔ _
  rw [View.set_slice_whole, Rect.mem_set_unit]
  exact Iff.rfl

/-- Every index of the array is in some point's block: edge `e` is in block `e / 4096`. -/
theorem cover (i : S8x32768.Idx) :
    ∃ t : Fin cfg0.N, (cfg0.win 7).flush t = true ∧ i ∈ ((cfg0.win 7).blk t).view.set := by
  have hi0 : (i 0).val < 8 := (i 0).isLt
  have hi1 : (i 1).val < 32768 := (i 1).isLt
  obtain ⟨t, ht⟩ := idx_onto ⟨(i 1).val / 4096, by omega⟩
  have q0 : win0_7.index t (0 : Fin 2) = 0 := congrFun ht 0
  have q1 : win0_7.index t (1 : Fin 2) = (i 1).val / 4096 := congrFun ht 1
  refine ⟨t, flush0_7 t, ?_⟩
  rw [mem_blk]
  intro a
  match a with
  | ⟨0, _⟩ => show win0_7.index t (0 : Fin 2) * 8 ≤ (i 0).val ∧ (i 0).val < win0_7.index t (0 : Fin 2) * 8 + 8; omega
  | ⟨1, _⟩ => show win0_7.index t (1 : Fin 2) * 4096 ≤ (i 1).val ∧ (i 1).val < win0_7.index t (1 : Fin 2) * 4096 + 4096; omega

/-- THE ARRAY after the kernel's run: the one function of the arrays as the region finds them. -/
theorem final :
    (dats m 0 c).arrAt 7 cfg0.N
      = outArr (V m c main_v19) (V m c main_v28) (V m c main_v27) (V m c main_v29) (V m c main_v30) (V m c main_v31) (V m c main_v32) :=
  (dats m 0 c).arrAt_eq_of_cover 7 _ (fun t _ => flushed_eq m c t) cover

end Cert.KernelIdeal.Blocks

end
-- ==== Proof.Prefix.lean ====
/-
  What the region finds in its input arrays.

  Before the kernel is launched the host lays its operands out with the edges on the last axis: the
  coordinate differences of the gathered end points transposed from [batch, edge, coordinate] to
  [batch, coordinate, edge]; the rest lengths as one row; the gathered structural numbers transposed to
  [number, edge]; the first layer's weights transposed; its bias as a column; the second layer's weights as a row;
  its bias as a single entry. Each is read at an entry here. The gathers are not opened: the difference array
  and the gathered structural rows are the same terms the reference program forms from the same arguments, and
  are named by the reference's stages.
-/
import proofs.«112120_j12816182411320_2_alg».proof.Proof.Gen.KernelIdeal.Frame
import proofs.«112120_j12816182411320_2_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Prefix

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ) (c : Dev nD)

/-- The array of coordinate differences, edges last: the difference of the two gathered arrays, transposed. -/
theorem V_diff :
    (V m c main_v19 : S8x3x32768.Idx → EReal)
      = transpose S8x3x32768 [0, 2, 1] (Cert.ReferenceIdeal.Read.val_main_v18 (F := Ideal) (m ((c : Thread nD τ).loc main_arg0)) (m ((c : Thread nD τ).loc main_arg1))) transposes_S8x32768x3_S8x3x32768_0_2_1 := by
  show StableHlo.after hostOps0 (fun b => m (c, b)) (Proc.devRef .tc main_v19) = _
  after_results_simp <;> rfl

/-- The rest lengths as one row. -/
theorem V_rest :
    (V m c main_v28 : S1x32768.Idx → EReal) = shapeCast S1x32768 (m ((c : Thread nD τ).loc main_arg3)) shapeCasts_S32768_S1x32768 := by
  show StableHlo.after hostOps0 (fun b => m (c, b)) (Proc.devRef .tc main_v28) = _
  after_results_simp <;> rfl

/-- The gathered structural numbers, edges last. -/
theorem V_struct :
    (V m c main_v27 : S8x32768.Idx → EReal)
      = transpose S8x32768 [1, 0] (Cert.ReferenceIdeal.Read.val_main_v38 (F := Ideal) (m ((c : Thread nD τ).loc main_arg2)) (m ((c : Thread nD τ).loc main_arg4))) transposes_S32768x8_S8x32768_1_0 := by
  show StableHlo.after hostOps0 (fun b => m (c, b)) (Proc.devRef .tc main_v27) = _
  after_results_simp <;> rfl

/-- The first layer's weights, transposed. -/
theorem V_w1 :
    (V m c main_v29 : S32x10.Idx → EReal) = transpose S32x10 [1, 0] (m ((c : Thread nD τ).loc main_arg5)) transposes_S10x32_S32x10_1_0 := by
  show StableHlo.after hostOps0 (fun b => m (c, b)) (Proc.devRef .tc main_v29) = _
  after_results_simp <;> rfl

/-- The first layer's bias as a column. -/
theorem V_b1 :
    (V m c main_v30 : S32x1.Idx → EReal) = shapeCast S32x1 (m ((c : Thread nD τ).loc main_arg6)) shapeCasts_S32_S32x1 := by
  show StableHlo.after hostOps0 (fun b => m (c, b)) (Proc.devRef .tc main_v30) = _
  after_results_simp <;> rfl

/-- The second layer's weights as a row. -/
theorem V_w2 :
    (V m c main_v31 : S1x32.Idx → EReal) = transpose S1x32 [1, 0] (m ((c : Thread nD τ).loc main_arg7)) transposes_S32x1_S1x32_1_0 := by
  show StableHlo.after hostOps0 (fun b => m (c, b)) (Proc.devRef .tc main_v31) = _
  after_results_simp <;> rfl

/-- The second layer's bias as a single entry. -/
theorem V_b2 :
    (V m c main_v32 : S1x1.Idx → EReal) = shapeCast S1x1 (m ((c : Thread nD τ).loc main_arg8)) shapeCasts_S1_S1x1 := by
  show StableHlo.after hostOps0 (fun b => m (c, b)) (Proc.devRef .tc main_v32) = _
  after_results_simp <;> rfl

/-! ### Read at an entry -/

theorem V_diff_apply (b : Fin 8) (k : Fin 3) (e : Fin 32768) :
    V m c main_v19 (ix3 b k e) = Cert.ReferenceIdeal.Read.val_main_v18 (F := Ideal) (m ((c : Thread nD τ).loc main_arg0)) (m ((c : Thread nD τ).loc main_arg1)) (ix3 b e k) := by
  rw [V_diff]
  exact transpose_ix3_021_apply _ transposes_S8x32768x3_S8x3x32768_0_2_1 b k e

theorem V_rest_apply (e : Fin 32768) : V m c main_v28 (ix2 (0 : Fin 1) e) = (m ((c : Thread nD τ).loc main_arg3)) (ix1 e) := by
  rw [V_rest]
  exact shapeCast_a_1a_apply _ shapeCasts_S32768_S1x32768 0 e

theorem V_struct_apply (j : Fin 8) (e : Fin 32768) :
    V m c main_v27 (ix2 j e) = Cert.ReferenceIdeal.Read.val_main_v38 (F := Ideal) (m ((c : Thread nD τ).loc main_arg2)) (m ((c : Thread nD τ).loc main_arg4)) (ix2 e j) := by
  rw [V_struct]
  exact transpose_ix2_apply _ transposes_S32768x8_S8x32768_1_0 j e

theorem V_w1_apply (h : Fin 32) (f : Fin 10) : V m c main_v29 (ix2 h f) = (m ((c : Thread nD τ).loc main_arg5)) (ix2 f h) := by
  rw [V_w1]
  exact transpose_ix2_apply _ transposes_S10x32_S32x10_1_0 h f

/-- A vector of 32 entries cast to a column reads, at row `h`, entry `h`. -/
theorem V_b1_apply (h : Fin 32) : V m c main_v30 (ix2 h (0 : Fin 1)) = (m ((c : Thread nD τ).loc main_arg6)) (ix1 h) := by
  rw [V_b1]
  refine shapeCast_apply _ shapeCasts_S32_S32x1 _ _ ?_
  rw [Shape.rowMajor_val_two, Shape.rowMajor_val_one]
  show h.val = h.val * 1 + 0
  omega

theorem V_w2_apply (h : Fin 32) : V m c main_v31 (ix2 (0 : Fin 1) h) = (m ((c : Thread nD τ).loc main_arg7)) (ix2 h (0 : Fin 1)) := by
  rw [V_w2]
  exact transpose_ix2_apply _ transposes_S32x1_S1x32_1_0 (0 : Fin 1) h

theorem V_b2_apply : V m c main_v32 (ix2 (0 : Fin 1) (0 : Fin 1)) = (m ((c : Thread nD τ).loc main_arg8)) (ix1 (0 : Fin 1)) := by
  rw [V_b2]
  exact shapeCast_a_1a_apply _ shapeCasts_S1_S1x1 0 0

end Cert.KernelIdeal.Prefix

end
-- ==== Proof.RefEntry.lean ====
/-
  The reference program's edge-bias array read at one entry.

  For a batch element b and an edge e the reference program computes its entry (b, e) in stages: the squared length of the
  difference vector as a sum over the three coordinates started from zero; the relative stretch from that, the rest
  length and the constant ε; the ten features as three blocks laid side by side along the last axis (one column, one
  column, eight columns); the hidden layer as a contraction over the ten features followed by the bias; the
  activation y · (1 / (1 + e^(-y))); the output as a contraction over the thirty-two hidden units followed by the
  output bias; and a final reshape that drops the trailing axis of extent one. Each stage is read here at the index
  that the next one asks for, and the result is the specification's edgeVal of the difference vector, the rest length,
  the gathered structural row and the weights. The difference array and the gathered structural rows stay as they are.
-/
import proofs.«112120_j12816182411320_2_alg».proof.Proof.Gen.ReferenceIdeal.Read
import proofs.«112120_j12816182411320_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefEntry

open Cert.ReferenceIdeal Cert.ReferenceIdeal.Gen Cert.ReferenceIdeal.Read Idealize.ShloMosaic Idealize.ShloMosaic.ValueIdx

section Stages

variable (x0 : (⟨S8x2048x3, .f32⟩ : BufTy).Contents (Elt Ideal)) (x1 : (⟨S2x32768, .i32⟩ : BufTy).Contents (Elt Ideal))
  (x2 : (⟨S32768, .i32⟩ : BufTy).Contents (Elt Ideal)) (x3 : (⟨S32768, .f32⟩ : BufTy).Contents (Elt Ideal))
  (x4 : (⟨S16x8, .f32⟩ : BufTy).Contents (Elt Ideal)) (x5 : (⟨S10x32, .f32⟩ : BufTy).Contents (Elt Ideal))
  (x6 : (⟨S32, .f32⟩ : BufTy).Contents (Elt Ideal)) (x7 : (⟨S32x1, .f32⟩ : BufTy).Contents (Elt Ideal))
  (x8 : (⟨S1, .f32⟩ : BufTy).Contents (Elt Ideal))

/-! ### The squared length -/

/-- The sum over the last axis at entry (b, e) runs over the entries (b, e, k). -/
theorem idx_v20 (b : Fin 8) (e : Fin 32768) (k : Fin 3) : idx_main_v20 (ix2 b e) k = ix3 b e k := by
  funext a
  match a with
  | ⟨0, _⟩ => rfl
  | ⟨1, _⟩ => rfl
  | ⟨2, _⟩ => rfl

/-- The reduced array at (b, e) is the squared length of the difference vector: the sum starts from the zero word,
    which is zero, and each summand is the square of one coordinate. -/
theorem v20_eq (b : Fin 8) (e : Fin 32768) :
    val_main_v20 (F := Ideal) x0 x1 (ix2 b e)
      = Cert.EdgeBias.dist2 (fun k : Fin 3 => val_main_v18 (F := Ideal) x0 x1 (ix3 b e k)) := by
  rw [val_main_v20_apply, val_main_cst_apply, Ideal.ofBits_def, Ideal.ofBits_zero_f32, zero_add]
  unfold Cert.EdgeBias.dist2
  refine Finset.sum_congr rfl fun k _ => ?_
  rw [idx_v20]
  rfl

/-- The first feature column: the squared length with a trailing axis of extent one. -/
theorem v21_eq (b : Fin 8) (e : Fin 32768) (c : Fin 1) :
    val_main_v21 (F := Ideal) x0 x1 (ix3 b e c)
      = Cert.EdgeBias.dist2 (fun k : Fin 3 => val_main_v18 (F := Ideal) x0 x1 (ix3 b e k)) := by
  rw [val_main_v21_apply]
  have h : idx_main_v21 (ix3 b e c) = ix2 b e := funext fun a => match a with
    | ⟨0, _⟩ => rfl
    | ⟨1, _⟩ => rfl
  rw [h, v20_eq]

/-! ### The relative stretch -/

/-- The constant under the square root is ε at every entry. -/
theorem v22_eq (i : S8x32768x1.Idx) : val_main_v22 (F := Ideal) i = Cert.EdgeBias.eps := by
  rw [val_main_v22_apply, val_main_cst_3_apply, Ideal.ofBits_def]
  rfl

/-- The rest lengths laid along the middle axis. -/
theorem v25_eq (a : Fin 1) (e : Fin 32768) (c : Fin 1) :
    val_main_v25 (F := Ideal) x3 (ix3 a e c) = x3 (ix1 e) := by
  rw [val_main_v25_apply]
  exact congrArg x3 (funext fun d => match d with | ⟨0, _⟩ => rfl)

/-- The rest lengths repeated over the batch. -/
theorem v26_eq (b : Fin 8) (e : Fin 32768) (c : Fin 1) :
    val_main_v26 (F := Ideal) x3 (ix3 b e c) = x3 (ix1 e) := by
  rw [val_main_v26_apply]
  have h : idx_main_v26 (ix3 b e c) = ix3 (0 : Fin 1) e (0 : Fin 1) := funext fun d => match d with
    | ⟨0, _⟩ => rfl
    | ⟨1, _⟩ => rfl
    | ⟨2, _⟩ => rfl
  rw [h, v25_eq]

/-- The constant added to the rest length is ε at every entry. -/
theorem v28_eq (i : S1x32768x1.Idx) : val_main_v28 (F := Ideal) i = Cert.EdgeBias.eps := by
  rw [val_main_v28_apply, val_main_cst_4_apply, Ideal.ofBits_def]
  rfl

/-- The denominator of the stretch: rest length plus ε, repeated over the batch. -/
theorem v30_eq (b : Fin 8) (e : Fin 32768) (c : Fin 1) :
    val_main_v30 (F := Ideal) x3 (ix3 b e c) = x3 (ix1 e) + Cert.EdgeBias.eps := by
  rw [val_main_v30_apply]
  have h : idx_main_v30 (ix3 b e c) = ix3 (0 : Fin 1) e (0 : Fin 1) := funext fun d => match d with
    | ⟨0, _⟩ => rfl
    | ⟨1, _⟩ => rfl
    | ⟨2, _⟩ => rfl
  rw [h, val_main_v29_apply, v25_eq, v28_eq]
  rfl

/-- The second feature column is the relative stretch. -/
theorem v31_eq (b : Fin 8) (e : Fin 32768) (c : Fin 1) :
    val_main_v31 (F := Ideal) x0 x1 x3 (ix3 b e c)
      = Cert.EdgeBias.stretch (fun k : Fin 3 => val_main_v18 (F := Ideal) x0 x1 (ix3 b e k)) (x3 (ix1 e)) := by
  rw [val_main_v31_apply, val_main_v27_apply, val_main_v24_apply, val_main_v23_apply, v21_eq, v22_eq, v26_eq, v30_eq]
  rfl

/-! ### The ten features -/

/-- The eight structural columns: the gathered row of the edge, repeated over the batch. -/
theorem v40_eq (b : Fin 8) (e : Fin 32768) (g : Fin 8) :
    val_main_v40 (F := Ideal) x2 x4 (ix3 b e g) = val_main_v38 (F := Ideal) x2 x4 (ix2 e g) := by
  rw [val_main_v40_apply, val_main_v39_apply]
  exact congrArg (val_main_v38 (F := Ideal) x2 x4) (funext fun d => match d with
    | ⟨0, _⟩ => rfl
    | ⟨1, _⟩ => rfl)

/-- The three blocks laid side by side along the last axis are the ten features: coordinate 0 falls in the first block,
    coordinate 1 in the second, and coordinate g + 2 in the third at its column g. -/
theorem v41_eq (b : Fin 8) (e : Fin 32768) (f : Fin 10) :
    val_main_v41 (F := Ideal) x0 x1 x2 x3 x4 (ix3 b e f)
      = Cert.EdgeBias.feat (fun k : Fin 3 => val_main_v18 (F := Ideal) x0 x1 (ix3 b e k)) (x3 (ix1 e))
          (fun j : Fin 8 => val_main_v38 (F := Ideal) x2 x4 (ix2 e j)) f := by
  unfold val_main_v41
  induction f using Fin.cases with
  | zero =>
    refine (concatenate_apply_piece (t := S8x32768x10) 2 [⟨S8x32768x1, (val_main_v21 (F := Ideal) x0 x1)⟩, ⟨S8x32768x1, (val_main_v31 (F := Ideal) x0 x1 x3)⟩, ⟨S8x32768x8, (val_main_v40 (F := Ideal) x2 x4)⟩]
      concatenates_S8x32768x1_S8x32768x1_S8x32768x8_S8x32768x10_d2
      (ix3 b e (0 : Fin 10)) 0 (by decide : 0 < 3) S8x32768x1 (val_main_v21 (F := Ideal) x0 x1) rfl rfl 0 rfl
      (ix3 b e (0 : Fin 1)) ?_ rfl).trans ?_
    · intro d hd
      match d, hd with
      | ⟨0, _⟩, _ => rfl
      | ⟨1, _⟩, _ => rfl
      | ⟨2, _⟩, hd => exact absurd (Fin.ext rfl) hd
    · rw [v21_eq, Cert.EdgeBias.feat_zero]
  | succ f' =>
    induction f' using Fin.cases with
    | zero =>
      refine (concatenate_apply_piece (t := S8x32768x10) 2 [⟨S8x32768x1, (val_main_v21 (F := Ideal) x0 x1)⟩, ⟨S8x32768x1, (val_main_v31 (F := Ideal) x0 x1 x3)⟩, ⟨S8x32768x8, (val_main_v40 (F := Ideal) x2 x4)⟩]
      concatenates_S8x32768x1_S8x32768x1_S8x32768x8_S8x32768x10_d2
        (ix3 b e (Fin.succ (0 : Fin 9))) 1 (by decide : 1 < 3) S8x32768x1 (val_main_v31 (F := Ideal) x0 x1 x3) rfl rfl 1 rfl
        (ix3 b e (0 : Fin 1)) ?_ rfl).trans ?_
      · intro d hd
        match d, hd with
        | ⟨0, _⟩, _ => rfl
        | ⟨1, _⟩, _ => rfl
        | ⟨2, _⟩, hd => exact absurd (Fin.ext rfl) hd
      · rw [v31_eq]
        rfl
    | succ g =>
      refine (concatenate_apply_piece (t := S8x32768x10) 2 [⟨S8x32768x1, (val_main_v21 (F := Ideal) x0 x1)⟩, ⟨S8x32768x1, (val_main_v31 (F := Ideal) x0 x1 x3)⟩, ⟨S8x32768x8, (val_main_v40 (F := Ideal) x2 x4)⟩]
      concatenates_S8x32768x1_S8x32768x1_S8x32768x8_S8x32768x10_d2
        (ix3 b e g.succ.succ) 2 (by decide : 2 < 3) S8x32768x8 (val_main_v40 (F := Ideal) x2 x4) rfl rfl 2 rfl
        (ix3 b e g) ?_ ?_).trans ?_
      · intro d hd
        match d, hd with
        | ⟨0, _⟩, _ => rfl
        | ⟨1, _⟩, _ => rfl
        | ⟨2, _⟩, hd => exact absurd (Fin.ext rfl) hd
      · show 2 + g.val = g.val + 1 + 1
        omega
      · rw [v40_eq, Cert.EdgeBias.feat_add_two]

/-! ### The hidden layer and its activation -/

/-- The hidden bias repeated over batch and edge. -/
theorem v44_eq (b : Fin 8) (e : Fin 32768) (h : Fin 32) :
    val_main_v44 (F := Ideal) x6 (ix3 b e h) = x6 (ix1 h) := by
  rw [val_main_v44_apply, val_main_v43_apply]
  exact congrArg x6 (funext fun d => match d with | ⟨0, _⟩ => rfl)

/-- The first layer before its activation: the contraction over the ten features, each product written
    feature · weight, plus the bias. -/
theorem v45_eq (b : Fin 8) (e : Fin 32768) (h : Fin 32) :
    val_main_v45 (F := Ideal) x0 x1 x2 x3 x4 x5 x6 (ix3 b e h)
      = Cert.EdgeBias.hidden
          (Cert.EdgeBias.feat (fun k : Fin 3 => val_main_v18 (F := Ideal) x0 x1 (ix3 b e k)) (x3 (ix1 e))
            (fun j : Fin 8 => val_main_v38 (F := Ideal) x2 x4 (ix2 e j)))
          (fun (f : Fin 10) (h : Fin 32) => x5 (ix2 f h)) (fun h : Fin 32 => x6 (ix1 h)) h := by
  rw [val_main_v45_apply, val_main_v42_apply, v44_eq]
  refine Eq.trans ?_ (Cert.EdgeBias.hidden_comm _ _ _ h)
  refine congrArg (· + x6 (ix1 h)) (Finset.sum_congr rfl fun k _ => ?_)
  have hl : lidx_main_v42 (ix3 b e h) k = ix3 b e k := funext fun d => match d with
    | ⟨0, _⟩ => rfl
    | ⟨1, _⟩ => rfl
    | ⟨2, _⟩ => rfl
  have hr : ridx_main_v42 (ix3 b e h) k = ix2 k h := funext fun d => match d with
    | ⟨0, _⟩ => rfl
    | ⟨1, _⟩ => rfl
  rw [hl, hr, v41_eq]

/-- The activation: y times the quotient 1 / (1 + e^(-y)), the two constants being the word of the number one. -/
theorem v46_eq (i : S8x32768x32.Idx) :
    val_main_v46 (F := Ideal) x0 x1 x2 x3 x4 x5 x6 i
      = Cert.EdgeBias.silu (val_main_v45 (F := Ideal) x0 x1 x2 x3 x4 x5 x6 i) := by
  rw [val_main_v46_apply, val_main_call0_v5_apply, val_main_call0_v4_apply, val_main_call0_cst_0_apply,
    val_main_call0_v3_apply, val_main_call0_v2_apply, val_main_call0_cst_apply, val_main_call0_v1_apply,
    val_main_call0_v0_apply, Ideal.ofBits_def, Cert.EdgeBias.ofBits_one_f32]
  generalize val_main_v45 (F := Ideal) x0 x1 x2 x3 x4 x5 x6 i = y
  exact Cert.EdgeBias.silu_quotient y

/-! ### The output layer -/

/-- The output bias repeated over batch and edge. -/
theorem v49_eq (i : S8x32768x1.Idx) : val_main_v49 (F := Ideal) x8 i = x8 (ix1 (0 : Fin 1)) := by
  rw [val_main_v49_apply, val_main_v48_apply]
  exact congrArg x8 (funext fun d => match d with | ⟨0, _⟩ => rfl)

/-- Dropping the trailing axis of extent one: entry (b, e) of the result is entry (b, e, 0) of the operand, because
    (b · 32768 + e) / 32768 = b and (b · 32768 + e) mod 32768 = e for e < 32768. -/
theorem idx_v51 (b : Fin 8) (e : Fin 32768) : idx_main_v51 (ix2 b e) = ix3 b e (0 : Fin 1) := by
  funext a
  match a with
  | ⟨0, _⟩ =>
    refine Fin.ext ?_
    have hb := b.isLt
    have he := e.isLt
    show (b.val * 32768 + e.val) / 32768 = b.val
    omega
  | ⟨1, _⟩ =>
    refine Fin.ext ?_
    have hb := b.isLt
    have he := e.isLt
    show (b.val * 32768 + e.val) / 1 % 32768 = e.val
    omega
  | ⟨2, _⟩ => rfl

end Stages

/-- The reference program's edge-bias array at entry (b, e) is the specification's value of the difference vector, the
    rest length, the gathered structural row and the weights. -/
theorem ref_entry
    (x0 : (⟨S8x2048x3, .f32⟩ : BufTy).Contents (Elt Ideal)) (x1 : (⟨S2x32768, .i32⟩ : BufTy).Contents (Elt Ideal))
    (x2 : (⟨S32768, .i32⟩ : BufTy).Contents (Elt Ideal)) (x3 : (⟨S32768, .f32⟩ : BufTy).Contents (Elt Ideal))
    (x4 : (⟨S16x8, .f32⟩ : BufTy).Contents (Elt Ideal)) (x5 : (⟨S10x32, .f32⟩ : BufTy).Contents (Elt Ideal))
    (x6 : (⟨S32, .f32⟩ : BufTy).Contents (Elt Ideal)) (x7 : (⟨S32x1, .f32⟩ : BufTy).Contents (Elt Ideal))
    (x8 : (⟨S1, .f32⟩ : BufTy).Contents (Elt Ideal)) (b : Fin 8) (e : Fin 32768) :
    val_main_v51 (F := Ideal) x0 x1 x2 x3 x4 x5 x6 x7 x8 (ix2 b e)
      = Cert.EdgeBias.edgeVal (fun k : Fin 3 => val_main_v18 (F := Ideal) x0 x1 (ix3 b e k)) (x3 (ix1 e))
          (fun j : Fin 8 => val_main_v38 (F := Ideal) x2 x4 (ix2 e j)) (fun (f : Fin 10) (h : Fin 32) => x5 (ix2 f h))
          (fun h : Fin 32 => x6 (ix1 h)) (fun h : Fin 32 => x7 (ix2 h (0 : Fin 1))) (x8 (ix1 (0 : Fin 1))) := by
  rw [val_main_v51_apply, idx_v51, val_main_v50_apply, val_main_v47_apply, v49_eq]
  refine Eq.trans ?_ (Cert.EdgeBias.edgeVal_comm _ _ _ _ _ _ _)
  refine congrArg (· + x8 (ix1 (0 : Fin 1))) (Finset.sum_congr rfl fun k _ => ?_)
  have hl : lidx_main_v47 (ix3 b e (0 : Fin 1)) k = ix3 b e k := funext fun d => match d with
    | ⟨0, _⟩ => rfl
    | ⟨1, _⟩ => rfl
    | ⟨2, _⟩ => rfl
  have hr : ridx_main_v47 (ix3 b e (0 : Fin 1)) k = ix2 k (0 : Fin 1) := funext fun d => match d with
    | ⟨0, _⟩ => rfl
    | ⟨1, _⟩ => rfl
  rw [hl, hr, v46_eq, v45_eq]

end Cert.ReferenceIdeal.RefEntry

end
-- ==== Proof.Bridge.lean ====
/-
  The kernel's edge-bias array is the reference's.

  At every `(b, e)` the kernel's array holds the specification's entry of the operands as the region finds them;
  read through the host's layouts those are the difference of the gathered end points at `(b, e, ·)`, the rest
  length of edge `e`, the gathered structural numbers of edge `e`, and the weights at their own indices — the very
  numbers of which the reference's edge-bias array holds the specification's entry at `(b, e)`.
-/
import proofs.«112120_j12816182411320_2_alg».proof.Proof.OutArray
import proofs.«112120_j12816182411320_2_alg».proof.Proof.Prefix
import proofs.«112120_j12816182411320_2_alg».proof.Proof.RefEntry

set_option maxRecDepth 16384

noncomputable section

namespace Cert.KernelIdeal.Bridge

open Cert.KernelIdeal Cert.KernelIdeal.Gen Cert.KernelIdeal.Blocks Cert.KernelIdeal.Prefix Idealize.ShloMosaic
  Idealize.ShloMosaic.TcCoe Idealize.ShloMosaic.ValueIdx Cert.EdgeBias

variable (m : (ℓ : Loc nD τ sig) → Buf (Elt Ideal) ℓ) (c : Dev nD)

/-- Entry `(b, e)` of the kernel's array is entry `(b, e)` of the reference's. -/
theorem out_entry_eq_ref (b : Fin 8) (e : Fin 32768) :
    outEntry (V m c main_v19) (V m c main_v28) (V m c main_v27) (V m c main_v29) (V m c main_v30) (V m c main_v31) (V m c main_v32) b e = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 b e) := by
  unfold outEntry
  refine (edgeVal_congr (fun k => V_diff_apply m c b k e) (V_rest_apply m c e) (fun j => V_struct_apply m c j e)
    (fun f h => V_w1_apply m c h f) (fun h => V_b1_apply m c h) (fun h => V_w2_apply m c h) (V_b2_apply m c)).trans ?_
  exact (Cert.ReferenceIdeal.RefEntry.ref_entry _ _ _ _ _ _ _ _ _ b e).symm

/-- The kernel's edge-bias array after the run is the reference's edge-bias array of the same arguments. -/
theorem final_eq_ref : (dats m 0 c).arrAt 7 cfg0.N = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [final]
  funext i
  have hi : i = ix2 (⟨(i 0).val, (i 0).isLt⟩ : Fin 8) (⟨(i 1).val, (i 1).isLt⟩ : Fin 32768) :=
    funext fun a => Fin.ext (by match a with | ⟨0, _⟩ => rfl | ⟨1, _⟩ => rfl)
  show outEntry (V m c main_v19) (V m c main_v28) (V m c main_v27) (V m c main_v29) (V m c main_v30) (V m c main_v31) (V m c main_v32) (⟨(i 0).val, (i 0).isLt⟩ : Fin 8) (⟨(i 1).val, (i 1).isLt⟩ : Fin 32768) = _
  refine (out_entry_eq_ref m c _ _).trans ?_
  exact congrArg (Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) hi.symm

end Cert.KernelIdeal.Bridge

end
-- ==== Proof.RefTail.lean ====
/-
  The host operations that follow the edge-bias array in the reference program, as one function of that array.

  The dense bias of shape [8, 1, 2048, 2048] is built from the edge-bias array eb of shape [8, 32768] in three steps: an array
  filled with the default value is written, for every edge with end points (i, j), at position (i, j) with the edge's
  entry of eb (later writes to the same position replace earlier ones); the result is written in the same way at the
  mirrored position (j, i); and a unit axis is inserted after the batch axis. The end points come from the two rows of
  the edge-index array, a negative index counted from the end. Nothing of this depends on how eb was computed, so the
  reference program's result is this function applied to its own edge-bias array.
-/
import proofs.«112120_j12816182411320_2_alg».proof.Proof.Gen.ReferenceIdeal.Read

noncomputable section

namespace Cert.ReferenceIdeal.RefTail

open Cert.ReferenceIdeal Cert.ReferenceIdeal.Gen Cert.ReferenceIdeal.Read Idealize.ShloMosaic Idealize.ShloMosaic.ValueIdx

/-- The dense bias: the default value everywhere, then the edge-bias array written at (i, j) and then at (j, i) of every
    edge, a unit axis added. -/
def scatterTail (x1 : (⟨S2x32768, .i32⟩ : BufTy).Contents (Elt Ideal)) (x9 : (⟨S_, .f32⟩ : BufTy).Contents (Elt Ideal))
    (eb : (⟨S8x32768, .f32⟩ : BufTy).Contents (Elt Ideal)) : (⟨S8x1x2048x2048, .f32⟩ : BufTy).Contents (Elt Ideal) :=
  broadcastInDim S8x1x2048x2048 ![0, 2, 3] bcast_S8x2048x2048_S8x1x2048x2048_0_2_3
    (Host.scatter scatter_S8x2048x2048_S32768x2_S8x32768_0_12_12_1 (fun _ b => b)
      (Host.scatter scatter_S8x2048x2048_S32768x2_S8x32768_0_12_12_1 (fun _ b => b)
        (val_main_v52 (F := Ideal) x9) (val_main_v65 (F := Ideal) x1) eb)
      (val_main_v79 (F := Ideal) x1) eb)

/-- The reference program's result is the dense bias of its own edge-bias array. -/
theorem ref_tail
    (x0 : (⟨S8x2048x3, .f32⟩ : BufTy).Contents (Elt Ideal)) (x1 : (⟨S2x32768, .i32⟩ : BufTy).Contents (Elt Ideal))
    (x2 : (⟨S32768, .i32⟩ : BufTy).Contents (Elt Ideal)) (x3 : (⟨S32768, .f32⟩ : BufTy).Contents (Elt Ideal))
    (x4 : (⟨S16x8, .f32⟩ : BufTy).Contents (Elt Ideal)) (x5 : (⟨S10x32, .f32⟩ : BufTy).Contents (Elt Ideal))
    (x6 : (⟨S32, .f32⟩ : BufTy).Contents (Elt Ideal)) (x7 : (⟨S32x1, .f32⟩ : BufTy).Contents (Elt Ideal))
    (x8 : (⟨S1, .f32⟩ : BufTy).Contents (Elt Ideal)) (x9 : (⟨S_, .f32⟩ : BufTy).Contents (Elt Ideal)) :
    val_main_v81 (F := Ideal) x0 x1 x2 x3 x4 x5 x6 x7 x8 x9
      = scatterTail x1 x9 (val_main_v51 (F := Ideal) x0 x1 x2 x3 x4 x5 x6 x7 x8) := rfl

end Cert.ReferenceIdeal.RefTail

end
-- ==== Proof.Tail.lean ====
/-
  The host operations that follow the kernel call, read as one function of the kernel's output array.

  After the call the program fills an array with the default value, writes the kernel's output array eb into it at the
  positions (i, j) of the edges, writes eb again at the mirrored positions (j, i), and inserts a unit axis. The end
  points i, j come from the two rows of the edge-index array, which were sliced and reshaped before the call, a
  negative index being counted from the end. These are, operation for operation, the steps by which the reference
  program turns its edge-bias array into its result, so what they leave in the result buffer is the reference
  program's dense-bias function applied to the default value, the edge-index array and the kernel's output array.

  Three facts are used: the buffers written before the call and not touched by it are found as they were left (the
  two index rows are the reference program's own two index rows of the same argument); the buffer the call writes holds
  the kernel's output array; and the two index columns laid side by side depend on the columns alone.
-/
import proofs.«112120_j12816182411320_2_alg».proof.Proof.Gen.KernelIdeal.Frame
import proofs.«112120_j12816182411320_2_alg».proof.Proof.RefTail
import Idealize.ShloMosaic.Lib.StableHlo.Run
import Idealize.ShloMosaic.Lib.Pipeline.Value

set_option maxRecDepth 16384

noncomputable section

namespace Cert.KernelIdeal.Tail

open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (c : Dev nD)

/-- The first row of the edge-index array, as the operations before the call leave it: row 0 of the argument sliced
    out and its unit axis dropped, which is the reference program's first index row of the same argument. -/
theorem V_main_v1 :
    (V m c main_v1 : S32768.Idx → BitVec 32)
      = Cert.ReferenceIdeal.Read.val_main_v1 (F := Ideal) (m ((c : Thread nD τ).loc main_arg1)) := by
  show StableHlo.after hostOps0 (fun b => m (c, b)) (Proc.devRef .tc main_v1) = _
  after_results_simp
  rfl

/-- The second row of the edge-index array, likewise: the reference program's second index row. -/
theorem V_main_v3 :
    (V m c main_v3 : S32768.Idx → BitVec 32)
      = Cert.ReferenceIdeal.Read.val_main_v3 (F := Ideal) (m ((c : Thread nD τ).loc main_arg1)) := by
  show StableHlo.after hostOps0 (fun b => m (c, b)) (Proc.devRef .tc main_v3) = _
  after_results_simp
  rfl

/-- Two index columns of 32768 entries laid side by side: the array of index pairs a scatter reads. It is a function
    of the two columns alone. -/
def cols2 (a b : S32768x1.Idx → BitVec 32) : S32768x2.Idx → BitVec 32 :=
  concatenate S32768x2 1 [⟨S32768x1, a⟩, ⟨S32768x1, b⟩] concatenates_S32768x1_S32768x1_S32768x2_d1

/-- The concatenation of two columns along the second axis is cols2 of them. -/
theorem cols2_fold (a b : S32768x1.Idx → BitVec 32) :
    concatenate S32768x2 1 [⟨S32768x1, a⟩, ⟨S32768x1, b⟩] concatenates_S32768x1_S32768x1_S32768x2_d1 = cols2 a b := rfl

/-- What the operations after the call leave in the result buffer: the reference program's dense bias of the
    edge-index array, the default value and the kernel's output array. -/
theorem kernel_tail :
    Pipeline.afterTail₀ cfgs (dats m) 0 (V0 m) [hostOps1] c main_v63
      = Cert.ReferenceIdeal.RefTail.scatterTail (m ((c : Thread nD τ).loc main_arg1)) (m ((c : Thread nD τ).loc main_arg9))
          ((dats m 0 c).arrAt 7 cfg0.N) := by
  unfold Pipeline.afterTail₀
  show StableHlo.after hostOps1 _ (Proc.devRef .tc main_v63) = _
  -- each operation's result at its own buffer is its function of its operands' contents; any other buffer is unchanged
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cols2_fold]
  -- the default value and the two index rows are not written by the call: they are as the earlier operations left them
  have e9 : Pipeline.withArrays (cfgs 0).spec c (V0 m c) (fun w => (dats m 0 c).arrAt w (cfgs 0).N) (Proc.devRef .tc main_arg9)
      = m ((c : Thread nD τ).loc main_arg9) :=
    (Pipeline.withArrays_of_ne _ c (V0 m c) _ main_arg9 (by exact (by decide : ∀ w, Pipeline.arrRef spec0 w ≠ main_arg9))).trans
      (V_main_arg9 m c)
  have e1 : (Pipeline.withArrays (cfgs 0).spec c (V0 m c) (fun w => (dats m 0 c).arrAt w (cfgs 0).N) (Proc.devRef .tc main_v1)
        : S32768.Idx → BitVec 32)
      = Cert.ReferenceIdeal.Read.val_main_v1 (F := Ideal) (m ((c : Thread nD τ).loc main_arg1)) :=
    (Pipeline.withArrays_of_ne _ c (V0 m c) _ main_v1 (by exact (by decide : ∀ w, Pipeline.arrRef spec0 w ≠ main_v1))).trans
      (V_main_v1 m c)
  have e3 : (Pipeline.withArrays (cfgs 0).spec c (V0 m c) (fun w => (dats m 0 c).arrAt w (cfgs 0).N) (Proc.devRef .tc main_v3)
        : S32768.Idx → BitVec 32)
      = Cert.ReferenceIdeal.Read.val_main_v3 (F := Ideal) (m ((c : Thread nD τ).loc main_arg1)) :=
    (Pipeline.withArrays_of_ne _ c (V0 m c) _ main_v3 (by exact (by decide : ∀ w, Pipeline.arrRef spec0 w ≠ main_v3))).trans
      (V_main_v3 m c)
  -- the buffer the call writes (its eighth window's array) holds the kernel's output array
  have e33 : Pipeline.withArrays (cfgs 0).spec c (V0 m c) (fun w => (dats m 0 c).arrAt w (cfgs 0).N) (Proc.devRef .tc main_v33)
      = (dats m 0 c).arrAt 7 cfg0.N :=
    Pipeline.withArrays_arr spec0 launch0.win.arr_inj c _ _ 7
  rw [e9, e1, e3, e33]
  -- both sides are now the same broadcast of the same two scatters over the same operands
  rfl

end Cert.KernelIdeal.Tail

end
-- ==== Proof.lean ====
/-
  The certificate of the edge-bias kernel against its reference.

  Both programs build, for eight batch elements and 32768 edges of a graph on 2048 nodes, a dense
  [8, 1, 2048, 2048] array: a default value everywhere, overwritten at (i, j) and then at (j, i) of every edge
  (i, j) by the edge's bias — a two-layer perceptron with the activation y · logistic y, applied to the squared
  length of the difference of the edge's end points, the relative stretch (√(|d|² + ε) − rest) / (rest + ε) against
  the edge's rest length, and eight structural numbers gathered by the edge's type.

  The two programs form the difference of the gathered end points, the gathered structural numbers, and the two
  scatters by the same host operations on the same arguments; they differ in where the perceptron runs. The kernel
  program transposes its operands so that the edges lie on the last axis and evaluates the perceptron in a kernel,
  4096 edges at a time, one batch element after the other; the reference evaluates it with the host's own
  contractions over [batch, edge, feature] arrays. At the ideal values (extended reals, exact operations, changes of
  float format the identity) both edge-bias arrays hold, at (b, e), the one number `Cert.EdgeBias.edgeVal` of the
  same operands: the two sides differ only in the order of the factors inside the two contractions, which is
  immaterial because multiplication of extended reals is commutative, in a leading zero of one sum, and in the
  spelling of the logistic function. No finiteness of the inputs is used. The equal edge-bias arrays then go through
  the same two scatters.

  The three frame claims are the generated frames (for the reference: its generated run, the result dropped); the
  ideal pass rewrote nothing, so the idealization claim is trivial.
-/
import proofs.«112120_j12816182411320_2_alg».proof.Defs
import proofs.«112120_j12816182411320_2_alg».proof.Proof.Gen.Kernel
import proofs.«112120_j12816182411320_2_alg».proof.Proof.Gen.Kernel.Skeleton
import proofs.«112120_j12816182411320_2_alg».proof.Proof.Gen.Kernel.Launch
import proofs.«112120_j12816182411320_2_alg».proof.Proof.Gen.Kernel.Points
import proofs.«112120_j12816182411320_2_alg».proof.Proof.Gen.Kernel.Frame
import proofs.«112120_j12816182411320_2_alg».proof.Proof.Gen.KernelIdeal
import proofs.«112120_j12816182411320_2_alg».proof.Proof.Gen.KernelIdeal.Skeleton
import proofs.«112120_j12816182411320_2_alg».proof.Proof.Gen.KernelIdeal.Launch
import proofs.«112120_j12816182411320_2_alg».proof.Proof.Gen.KernelIdeal.Points
import proofs.«112120_j12816182411320_2_alg».proof.Proof.Gen.KernelIdeal.Frame
import proofs.«112120_j12816182411320_2_alg».proof.Proof.Gen.ReferenceIdeal
import proofs.«112120_j12816182411320_2_alg».proof.Proof.Gen.ReferenceIdeal.Run
import proofs.«112120_j12816182411320_2_alg».proof.Proof.Gen.ReferenceIdeal.Read
import proofs.«112120_j12816182411320_2_alg».proof.Proof.Gen.Pre_finite_inputs
import proofs.«112120_j12816182411320_2_alg».proof.Proof.Bridge
import proofs.«112120_j12816182411320_2_alg».proof.Proof.Tail
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the dense array of the same default value and the same edge-bias array scattered at the same
    places: the kernel's edge-bias array is the reference's (`Bridge.final_eq_ref`), and the operations after the call are
    the reference's last operations (`Tail.kernel_tail`, `RefTail.ref_tail`). -/
theorem algebraic : Cert.algebraic_KernelIdeal_ReferenceIdeal := by
  intro m ρ m' ρ' _ hagree
  refine ⟨fun c => Cert.ReferenceIdeal.RefTail.scatterTail (m ((c.tc : Thread Cert.KernelIdeal.nD Cert.KernelIdeal.τ).loc Cert.KernelIdeal.main_arg1)) (m ((c.tc : Thread Cert.KernelIdeal.nD Cert.KernelIdeal.τ).loc Cert.KernelIdeal.main_arg9))
      (Cert.ReferenceIdeal.Read.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))), ?_, ?_⟩
  · refine (θ_run Cert.KernelIdeal.defs _ _).mono (fun r h c => ⟨?_, ?_⟩) (Cert.KernelIdeal.Gen.run_main m ρ)
    · exact ((h c).2 Cert.KernelIdeal.main_v63 (Pipeline.mem_restRefs_of Cert.KernelIdeal.main_v63 (by decide) (by decide))).trans
        ((Cert.KernelIdeal.Tail.kernel_tail m c).trans
          (congrArg (Cert.ReferenceIdeal.RefTail.scatterTail _ _) (Cert.KernelIdeal.Bridge.final_eq_ref m c)))
    · exact ⟨((h c).2 Cert.KernelIdeal.main_arg0 (Pipeline.mem_restRefs_of Cert.KernelIdeal.main_arg0 (by decide) (by decide))).trans
          (Cert.KernelIdeal.Gen.W_main_arg0 m (Cert.KernelIdeal.Gen.dats m) c),
        ((h c).2 Cert.KernelIdeal.main_arg1 (Pipeline.mem_restRefs_of Cert.KernelIdeal.main_arg1 (by decide) (by decide))).trans
          (Cert.KernelIdeal.Gen.W_main_arg1 m (Cert.KernelIdeal.Gen.dats m) c),
        ((h c).2 Cert.KernelIdeal.main_arg2 (Pipeline.mem_restRefs_of Cert.KernelIdeal.main_arg2 (by decide) (by decide))).trans
          (Cert.KernelIdeal.Gen.W_main_arg2 m (Cert.KernelIdeal.Gen.dats m) c),
        ((h c).2 Cert.KernelIdeal.main_arg3 (Pipeline.mem_restRefs_of Cert.KernelIdeal.main_arg3 (by decide) (by decide))).trans
          (Cert.KernelIdeal.Gen.W_main_arg3 m (Cert.KernelIdeal.Gen.dats m) c),
        ((h c).2 Cert.KernelIdeal.main_arg4 (Pipeline.mem_restRefs_of Cert.KernelIdeal.main_arg4 (by decide) (by decide))).trans
          (Cert.KernelIdeal.Gen.W_main_arg4 m (Cert.KernelIdeal.Gen.dats m) c),
        ((h c).2 Cert.KernelIdeal.main_arg5 (Pipeline.mem_restRefs_of Cert.KernelIdeal.main_arg5 (by decide) (by decide))).trans
          (Cert.KernelIdeal.Gen.W_main_arg5 m (Cert.KernelIdeal.Gen.dats m) c),
        ((h c).2 Cert.KernelIdeal.main_arg6 (Pipeline.mem_restRefs_of Cert.KernelIdeal.main_arg6 (by decide) (by decide))).trans
          (Cert.KernelIdeal.Gen.W_main_arg6 m (Cert.KernelIdeal.Gen.dats m) c),
        ((h c).2 Cert.KernelIdeal.main_arg7 (Pipeline.mem_restRefs_of Cert.KernelIdeal.main_arg7 (by decide) (by decide))).trans
          (Cert.KernelIdeal.Gen.W_main_arg7 m (Cert.KernelIdeal.Gen.dats m) c),
        ((h c).2 Cert.KernelIdeal.main_arg8 (Pipeline.mem_restRefs_of Cert.KernelIdeal.main_arg8 (by decide) (by decide))).trans
          (Cert.KernelIdeal.Gen.W_main_arg8 m (Cert.KernelIdeal.Gen.dats m) c),
        ((h c).2 Cert.KernelIdeal.main_arg9 (Pipeline.mem_restRefs_of Cert.KernelIdeal.main_arg9 (by decide) (by decide))).trans
          (Cert.KernelIdeal.Gen.W_main_arg9 m (Cert.KernelIdeal.Gen.dats m) c)⟩
  · refine (θ_run Cert.ReferenceIdeal.defs _ _).mono (fun r h c => ⟨?_, (h c).2⟩)
      (Cert.ReferenceIdeal.Value.run (F := Ideal) m' ρ')
    obtain ⟨g0, g1, g2, g3, g4, g5, g6, g7, g8, g9⟩ := hagree c
    rw [(h c).1, Cert.ReferenceIdeal.Read.val_main_v81_eq, Cert.ReferenceIdeal.RefTail.ref_tail, g0, g1, g2, g3, g4, g5, g6, g7, g8, g9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
